-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v16_1)) (v1 : (c : Dev Cert.KernelIdeal.nD) → Buf (Elt Ideal) ((c.tc : Thread Cert.KernelIdeal.nD Cert.KernelIdeal.τ).loc Cert.KernelIdeal.main_v16_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_1) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x1024 : Shape := ⟨2, ![32768, 1024]⟩
abbrev S1024x512 : Shape := ⟨2, ![1024, 512]⟩
abbrev S1024 : Shape := ⟨1, ![1024]⟩
abbrev S1024x1024 : Shape := ⟨2, ![1024, 1024]⟩
abbrev S128x1024 : Shape := ⟨2, ![128, 1024]⟩
abbrev S128 : Shape := ⟨1, ![128]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x1024 : S_.BroadcastsInDim S32768x1024 (![] : Fin 0 → Fin S32768x1024.rank)
  reducesTo_S32768x1024_S_d0_1 : S32768x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg14 : FVec F S1024x1024 .f32) (main_arg15 : FVec F S1024 .f32) (main_arg16 : FVec F S128x1024 .f32) (main_arg17 : FVec F S128 .f32) (main_v63 : IVec S_ 1) (main_v67 : IVec S_ 1) : IVec S_ 1 :=
  let main_v68 : IVec S_ 1 := andi main_v63 main_v67
  let main_v69 : FVec F S1024x1024 .f32 := Host.absf main_arg14
  let main_cst_26 : FVec F S_ .f32 := constant S_ .f32 0x7F800000#32
  let main_v70 : FVec F S1024x1024 .f32 := broadcastInDim S1024x1024 ![] bcast_S_S1024x1024 main_cst_26
  let main_v71 : IVec S1024x1024 1 := cmpf .olt main_v69 main_v70
  let main_c_27 : IVec S_ 1 := constantI S_ 1 1#1
  let main_v72 : IVec S_ 1 := (fun x v => Host.reduce IntOp.andi x v reducesTo_S1024x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S128x1024 .f32 := Host.absf main_arg16
  let main_cst_30 : FVec F S_ .f32 := constant S_ .f32 0x7F800000#32
  let main_v80 : FVec F S128x1024 .f32 := broadcastInDim S128x1024 ![] bcast_S_S128x1024 main_cst_30
  let main_v81 : IVec S128x1024 1 := cmpf .olt main_v79 main_v80
  let main_c_31 : IVec S_ 1 := constantI S_ 1 1#1
  let main_v82 : IVec S_ 1 := (fun x v => Host.reduce IntOp.andi x v reducesTo_S128x1024_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_v83 main_v84 main_cst_32

def fn_part3 {F : FTy → Type} [FloatOps F] (main_arg11 : FVec F S1024 .f32) (main_arg12 : FVec F S1024x1024 .f32) (main_arg13 : FVec F S1024 .f32) (main_arg14 : FVec F S1024x1024 .f32) (main_arg15 : FVec F S1024 .f32) (main_arg16 : FVec F S128x1024 .f32) (main_arg17 : FVec F S128 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_arg17 main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_arg16 : FVec F S128x1024 .f32) (main_arg17 : FVec F S128 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_arg16 : FVec F S128x1024 .f32) (main_arg17 : FVec F S128 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S32768x512 .f32) (main_arg1 : FVec F S32768x1024 .f32) (main_arg2 : FVec F S1024x512 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024x1024 .f32) (main_arg13 : FVec F S1024 .f32) (main_arg14 : FVec F S1024x1024 .f32) (main_arg15 : FVec F S1024 .f32) (main_arg16 : FVec F S128x1024 .f32) (main_arg17 : FVec F S128 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S32768x512 : Shape := ⟨2, ![32768, 512]⟩
abbrev S32768x1024 : Shape := ⟨2, ![32768, 1024]⟩
abbrev S1024x512 : Shape := ⟨2, ![1024, 512]⟩
abbrev S1024 : Shape := ⟨1, ![1024]⟩
abbrev S1024x1024 : Shape := ⟨2, ![1024, 1024]⟩
abbrev S128x1024 : Shape := ⟨2, ![128, 1024]⟩
abbrev S128 : Shape := ⟨1, ![128]⟩
abbrev S512x1024 : Shape := ⟨2, ![512, 1024]⟩
abbrev S3072x1024 : Shape := ⟨2, ![3072, 1024]⟩
abbrev S1024x3072 : Shape := ⟨2, ![1024, 3072]⟩
abbrev S1024x128 : Shape := ⟨2, ![1024, 128]⟩
abbrev S1x1024 : Shape := ⟨2, ![1, 1024]⟩
abbrev S3072 : Shape := ⟨1, ![3072]⟩
abbrev S1x3072 : Shape := ⟨2, ![1, 3072]⟩
abbrev S1x128 : Shape := ⟨2, ![1, 128]⟩
abbrev S32768x128 : Shape := ⟨2, ![32768, 128]⟩
abbrev S256x512 : Shape := ⟨2, ![256, 512]⟩
abbrev S256x1024 : Shape := ⟨2, ![256, 1024]⟩
abbrev S256x128 : Shape := ⟨2, ![256, 128]⟩
abbrev S256x3072 : Shape := ⟨2, ![256, 3072]⟩

abbrev nBuf : Space → Nat
  | .hbm => 36
  | .vmem => 16
  | .smem => 0
  | _ => 0

abbrev bufTy : (tb : Table) → Fin (tcTables nBuf tb) → BufTy
  | .hbm, ⟨0, _⟩ => ⟨S32768x512, .f32⟩
  | .hbm, ⟨1, _⟩ => ⟨S32768x1024, .f32⟩
  | .hbm, ⟨2, _⟩ => ⟨S1024x512, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S128x1024, .f32⟩
  | .hbm, ⟨17, _⟩ => ⟨S128, .f32⟩
  | .hbm, ⟨18, _⟩ => ⟨S512x1024, .f32⟩
  | .hbm, ⟨19, _⟩ => ⟨S512x1024, .bf16⟩
  | .hbm, ⟨20, _⟩ => ⟨S3072x1024, .f32⟩
  | .hbm, ⟨21, _⟩ => ⟨S1024x3072, .f32⟩
  | .hbm, ⟨22, _⟩ => ⟨S1024x3072, .bf16⟩
  | .hbm, ⟨23, _⟩ => ⟨S3072x1024, .f32⟩
  | .hbm, ⟨24, _⟩ => ⟨S1024x3072, .f32⟩
  | .hbm, ⟨25, _⟩ => ⟨S1024x3072, .bf16⟩
  | .hbm, ⟨26, _⟩ => ⟨S1024x128, .f32⟩
  | .hbm, ⟨27, _⟩ => ⟨S1024x128, .bf16⟩
  | .hbm, ⟨28, _⟩ => ⟨S1x1024, .f32⟩
  | .hbm, ⟨29, _⟩ => ⟨S3072, .f32⟩
  | .hbm, ⟨30, _⟩ => ⟨S1x3072, .f32⟩
  | .hbm, ⟨31, _⟩ => ⟨S3072, .f32⟩
  | .hbm, ⟨32, _⟩ => ⟨S1x3072, .f32⟩
  | .hbm, ⟨33, _⟩ => ⟨S1x128, .f32⟩
  | .hbm, ⟨34, _⟩ => ⟨S32768x1024, .f32⟩
  | .hbm, ⟨35, _⟩ => ⟨S32768x128, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S512x1024, .bf16⟩
  | .local _ .vmem, ⟨5, _⟩ => ⟨S1x1024, .f32⟩
  | .local _ .vmem, ⟨6, _⟩ => ⟨S1024x3072, .bf16⟩
  | .local _ .vmem, ⟨7, _⟩ => ⟨S1x3072, .f32⟩
  | .local _ .vmem, ⟨8, _⟩ => ⟨S1024x3072, .bf16⟩
  | .local _ .vmem, ⟨9, _⟩ => ⟨S1x3072, .f32⟩
  | .local _ .vmem, ⟨10, _⟩ => ⟨S1024x128, .bf16⟩
  | .local _ .vmem, ⟨11, _⟩ => ⟨S1x128, .f32⟩
  | .local _ .vmem, ⟨12, _⟩ => ⟨S256x1024, .f32⟩
  | .local _ .vmem, ⟨13, _⟩ => ⟨S256x1024, .f32⟩
  | .local _ .vmem, ⟨14, _⟩ => ⟨S256x128, .f32⟩
  | .local _ .vmem, ⟨15, _⟩ => ⟨S256x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16_0 : Ref sig .tc := ⟨.hbm, 34, rfl⟩
abbrev main_v16_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x3072 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S1024x512_S512x1024_1_0 : S1024x512.Transposes [1, 0] S512x1024
  bitsLt_bf16_f32 : FTy.bits .bf16 < FTy.bits .f32
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  transposes_S128x1024_S1024x128_1_0 : S128x1024.Transposes [1, 0] S1024x128
  shapeCasts_S1024_S1x1024 : S1024.ShapeCasts S1x1024
  concatenates_S1024_S1024_S1024_S3072_d0 : Shape.Concatenates [S1024, S1024, S1024] S3072 0
  shapeCasts_S3072_S1x3072 : S3072.ShapeCasts S1x3072
  shapeCasts_S128_S1x128 : S128.ShapeCasts S1x128
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S256x512_S512x1024_S256x1024_1_0_0_1_n_n_wf : DotDims.WF S256x512 S512x1024 S256x1024 [1] [0] [0] [1] [] []
  dot_S256x1024_S1024x3072_S256x3072_1_0_0_1_n_n_wf : DotDims.WF S256x1024 S1024x3072 S256x3072 [1] [0] [0] [1] [] []
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S32768x512.size a
  hwx0_0 : ∀ i : grid0.Coords, EltTy.bits .f32 = 32 ∨ (Rect.block (s := S32768x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x3072.size a ≤ S1024x3072.size a
  hwx0_6 : ∀ i : grid0.Coords, EltTy.bits .bf16 = 32 ∨ (Rect.block (s := S1024x3072) S1024x3072.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x3072.size a ≤ S1x3072.size a
  hwx0_7 : ∀ i : grid0.Coords, EltTy.bits .f32 = 32 ∨ (Rect.block (s := S1x3072) S1x3072.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x128.size a ≤ S1024x128.size a
  hwx0_8 : ∀ i : grid0.Coords, EltTy.bits .bf16 = 32 ∨ (Rect.block (s := S1024x128) S1024x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S32768x1024.size a
  hwx0_10 : ∀ i : grid0.Coords, EltTy.bits .f32 = 32 ∨ (Rect.block (s := S32768x1024) S256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S32768x128.size a
  hwx0_11 : ∀ i : grid0.Coords, EltTy.bits .f32 = 32 ∨ (Rect.block (s := S32768x128) S256x128.size (cc0_transform_11 i) (hinb0_11 i)).WholeWords (EltTy.packing .f32)

variable [Facts₀]

def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1024x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1x3072.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1024x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v16_0) S256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v16_1) S256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x1024 : Shape := ⟨2, ![32768, 1024]⟩
abbrev S1024x512 : Shape := ⟨2, ![1024, 512]⟩
abbrev S1024 : Shape := ⟨1, ![1024]⟩
abbrev S1024x1024 : Shape := ⟨2, ![1024, 1024]⟩
abbrev S128x1024 : Shape := ⟨2, ![128, 1024]⟩
abbrev S128 : Shape := ⟨1, ![128]⟩
abbrev S512x1024 : Shape := ⟨2, ![512, 1024]⟩
abbrev S1x1024 : Shape := ⟨2, ![1, 1024]⟩
abbrev S_ : Shape := ⟨0, ![]⟩
abbrev S1024x128 : Shape := ⟨2, ![1024, 128]⟩
abbrev S32768x128 : Shape := ⟨2, ![32768, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x1024, .f32⟩
  | .hbm, ⟨2, _⟩ => ⟨S1024x512, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S1024, .f32⟩
  | .hbm, ⟨14, _⟩ => ⟨S1024x1024, .f32⟩
  | .hbm, ⟨15, _⟩ => ⟨S1024, .f32⟩
  | .hbm, ⟨16, _⟩ => ⟨S128x1024, .f32⟩
  | .hbm, ⟨17, _⟩ => ⟨S128, .f32⟩
  | .hbm, ⟨18, _⟩ => ⟨S512x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S1024x1024, .f32⟩
  | .hbm, ⟨27, _⟩ => ⟨S32768x1024, .f32⟩
  | .hbm, ⟨28, _⟩ => ⟨S1x1024, .f32⟩
  | .hbm, ⟨29, _⟩ => ⟨S32768x1024, .f32⟩
  | .hbm, ⟨30, _⟩ => ⟨S32768x1024, .f32⟩
  | .hbm, ⟨31, _⟩ => ⟨S1024x1024, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S1024x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S1024x1024, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S32768x1024, .f32⟩
  | .hbm, ⟨57, _⟩ => ⟨S32768x1024, .f32⟩
  | .hbm, ⟨58, _⟩ => ⟨S_, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S1024x1024, .f32⟩
  | .hbm, ⟨65, _⟩ => ⟨S32768x1024, .f32⟩
  | .hbm, ⟨66, _⟩ => ⟨S1x1024, .f32⟩
  | .hbm, ⟨67, _⟩ => ⟨S32768x1024, .f32⟩
  | .hbm, ⟨68, _⟩ => ⟨S32768x1024, .f32⟩
  | .hbm, ⟨69, _⟩ => ⟨S1024x1024, .f32⟩
  | .hbm, ⟨70, _⟩ => ⟨S32768x1024, .f32⟩
  | .hbm, ⟨71, _⟩ => ⟨S1x1024, .f32⟩
  | .hbm, ⟨72, _⟩ => ⟨S32768x1024, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S_, .f32⟩
  | .hbm, ⟨78, _⟩ => ⟨S32768x1024, .f32⟩
  | .hbm, ⟨79, _⟩ => ⟨S32768x1024, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S1024x128, .f32⟩
  | .hbm, ⟨84, _⟩ => ⟨S32768x128, .f32⟩
  | .hbm, ⟨85, _⟩ => ⟨S1x128, .f32⟩
  | .hbm, ⟨86, _⟩ => ⟨S32768x128, .f32⟩
  | .hbm, ⟨87, _⟩ => ⟨S32768x128, .f32⟩
  | .hbm, ⟨88, _⟩ => ⟨S32768x128, .f32⟩
  | .hbm, ⟨89, _⟩ => ⟨S_, .f32⟩
  | .hbm, ⟨90, _⟩ => ⟨S32768x128, .f32⟩
  | .hbm, ⟨91, _⟩ => ⟨S32768x128, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_cst_0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_1 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_3 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_4 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  transposes_S1024x1024_S1024x1024_1_0 : S1024x1024.Transposes [1, 0] S1024x1024
  transposes_S128x1024_S1024x128_1_0 : S128x1024.Transposes [1, 0] S1024x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  dot_S32768x512_S512x1024_S32768x1024_1_0_0_1_n_n_wf : DotDims.WF S32768x512 S512x1024 S32768x1024 [1] [0] [0] [1] [] []
  dot_S32768x1024_S1024x1024_S32768x1024_1_0_0_1_n_n_wf : DotDims.WF S32768x1024 S1024x1024 S32768x1024 [1] [0] [0] [1] [] []
  dot_S32768x1024_S1024x128_S32768x128_1_0_0_1_n_n_wf : DotDims.WF S32768x1024 S1024x128 S32768x128 [1] [0] [0] [1] [] []

variable [Facts₀]

def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x128_S32768x128_1_0_0_1_n_n : DotDims S32768x1024 S1024x128 S32768x128 where
  lhsContracting := [1]
  rhsContracting := [0]
  lhsNonContracting := [0]
  rhsNonContracting := [1]
  lhsBatch := []
  rhsBatch := []
  wf := dot_S32768x1024_S1024x128_S32768x128_1_0_0_1_n_n_wf

class Facts : Prop extends Facts₀ where

variable [Facts]
-- ==== Proof.KernelRun.lean ====
import proofs.«162858_j61040075211058_2_alg».proof.Proof.Gen.Kernel.Launch
import proofs.«162858_j61040075211058_2_alg».proof.Proof.Gen.Kernel.Skeleton
import proofs.«162858_j61040075211058_2_alg».proof.Proof.Gen.Kernel.Points
import Idealize.ShloMosaic.Lib.Pipeline.FrameBody
import Idealize.ShloMosaic.Lib.Ring
import Idealize.ShloMosaic.Lib.Tactic

/-!
# The run of the gated recurrent cell's program

The program is a line of host operations (the weight matrices transposed, the three gate matrices of each side
stacked into one, the bias vectors stacked and laid out as rows) followed by one grid of 128 points.  At point
t the body is handed rows 256·t … 256·t+255 of the two batch arrays and the whole of every weight and
bias array, and stores one block of each of the two results.  This file states what the body leaves in the two
result blocks as a function of the ten blocks it reads, proves that the body does so, and concludes that every
weakly fair execution ends with every array named: the results block by block, every other array as it was.
The statements hold at every number format.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the grid -/

/-- The contents of core c's buffers when the grid is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 1: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 2: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 3: the grid finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 4: the grid finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 5: the grid finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 6: the grid finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 7: the grid finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 8: the grid finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 9: the grid finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 10: the grid finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 11: the grid finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 12: the grid finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 13: the grid finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 14: the grid finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 15: the grid finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 16: the grid finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 17: the grid finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The blocks the body reads -/

/-- A window's block at point t, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer the body reads window 0 from holds that window's block at every point, fetched there or kept
    from the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 1 from holds that window's block at every point, fetched there or kept
    from the point before. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 2 from holds that window's block at every point, fetched there or kept
    from the point before. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 3 from holds that window's block at every point, fetched there or kept
    from the point before. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 4 from holds that window's block at every point, fetched there or kept
    from the point before. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 5 from holds that window's block at every point, fetched there or kept
    from the point before. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 6 from holds that window's block at every point, fetched there or kept
    from the point before. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 7 from holds that window's block at every point, fetched there or kept
    from the point before. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 8 from holds that window's block at every point, fetched there or kept
    from the point before. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 9 from holds that window's block at every point, fetched there or kept
    from the point before. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result blocks -/

abbrev rw0 : Rect S256x512 := Rect.unit (s := S256x512) ![0, 0] S256x512.size inb_S256x512_S256x512_0_0
abbrev rw1 : Rect S256x1024 := Rect.unit (s := S256x1024) ![0, 0] S256x1024.size inb_S256x1024_S256x1024_0_0
abbrev rw2 : Rect S512x1024 := Rect.unit (s := S512x1024) ![0, 0] S512x1024.size inb_S512x1024_S512x1024_0_0
abbrev rw3 : Rect S1x1024 := Rect.unit (s := S1x1024) ![0, 0] S1x1024.size inb_S1x1024_S1x1024_0_0
abbrev rw4 : Rect S1024x3072 := Rect.unit (s := S1024x3072) ![0, 0] S1024x3072.size inb_S1024x3072_S1024x3072_0_0
abbrev rw5 : Rect S1x3072 := Rect.unit (s := S1x3072) ![0, 0] S1x3072.size inb_S1x3072_S1x3072_0_0
abbrev rw6 : Rect S1024x3072 := Rect.unit (s := S1024x3072) ![0, 0] S1024x3072.size inb_S1024x3072_S1024x3072_0_0
abbrev rw7 : Rect S1x3072 := Rect.unit (s := S1x3072) ![0, 0] S1x3072.size inb_S1x3072_S1x3072_0_0
abbrev rw8 : Rect S1024x128 := Rect.unit (s := S1024x128) ![0, 0] S1024x128.size inb_S1024x128_S1024x128_0_0
abbrev rw9 : Rect S1x128 := Rect.unit (s := S1x128) ![0, 0] S1x128.size inb_S1x128_S1x128_0_0
abbrev rw10 : Rect S256x1024 := Rect.unit (s := S256x1024) ![0, 0] S256x1024.size inb_S256x1024_S256x1024_0_0
abbrev rw11 : Rect S256x128 := Rect.unit (s := S256x128) ![0, 0] S256x128.size inb_S256x128_S256x128_0_0

/-- The new hidden state's block, from the ten blocks read: (1 - z)·n + z·h. -/
def out10 (x0 : Vec F S256x512 .f32) (x1 : Vec F S256x1024 .f32) (x2 : Vec F S512x1024 .bf16) (x3 : Vec F S1x1024 .f32) (x4 : Vec F S1024x3072 .bf16) (x5 : Vec F S1x3072 .f32) (x6 : Vec F S1024x3072 .bf16) (x7 : Vec F S1x3072 .f32) (x8 : Vec F S1024x128 .bf16) (x9 : Vec F S1x128 .f32) : Vec F S256x1024 .f32 :=
  View.canon [⟨rw10, k0_pay1 (View.ld x1 rw1) (k0_pay5 (View.ld x0 rw0) (View.ld x1 rw1) (View.ld x2 rw2) (View.ld x3 rw3) (View.ld x4 rw4) (View.ld x5 rw5) (View.ld x6 rw6) (View.ld x7 rw7)) (k0_pay6 (View.ld x0 rw0) (View.ld x2 rw2) (View.ld x3 rw3) (View.ld x4 rw4) (View.ld x5 rw5)) (k0_pay7 (View.ld x0 rw0) (View.ld x1 rw1) (View.ld x2 rw2) (View.ld x3 rw3) (View.ld x4 rw4) (View.ld x5 rw5) (View.ld x6 rw6) (View.ld x7 rw7))⟩]

/-- The action values' block, from the ten blocks read: 10·tanh(h'·W2ᵀ + b2). -/
def out11 (x0 : Vec F S256x512 .f32) (x1 : Vec F S256x1024 .f32) (x2 : Vec F S512x1024 .bf16) (x3 : Vec F S1x1024 .f32) (x4 : Vec F S1024x3072 .bf16) (x5 : Vec F S1x3072 .f32) (x6 : Vec F S1024x3072 .bf16) (x7 : Vec F S1x3072 .f32) (x8 : Vec F S1024x128 .bf16) (x9 : Vec F S1x128 .f32) : Vec F S256x128 .f32 :=
  View.canon [⟨rw11, k0_pay2 (View.ld x1 rw1) (k0_pay5 (View.ld x0 rw0) (View.ld x1 rw1) (View.ld x2 rw2) (View.ld x3 rw3) (View.ld x4 rw4) (View.ld x5 rw5) (View.ld x6 rw6) (View.ld x7 rw7)) (k0_pay6 (View.ld x0 rw0) (View.ld x2 rw2) (View.ld x3 rw3) (View.ld x4 rw4) (View.ld x5 rw5)) (k0_pay7 (View.ld x0 rw0) (View.ld x1 rw1) (View.ld x2 rw2) (View.ld x3 rw3) (View.ld x4 rw4) (View.ld x5 rw5) (View.ld x6 rw6) (View.ld x7 rw7)) (View.ld x8 rw8) (View.ld x9 rw9)⟩]

/-- One store of the whole block covers it. -/
theorem cover10 (p0 : Vec F S256x1024 .f32) (y : S256x1024.Idx) :
    ∃ pc ∈ ([⟨rw10, p0⟩] : List (View.Piece (Elt F) S256x1024 .f32)), y ∈ pc.1.set :=
  View.cover_of_tiled [⟨rw10, p0⟩] S256x1024.size (by rfl) y
theorem cover11 (p0 : Vec F S256x128 .f32) (y : S256x128.Idx) :
    ∃ pc ∈ ([⟨rw11, p0⟩] : List (View.Piece (Elt F) S256x128 .f32)), y ∈ pc.1.set :=
  View.cover_of_tiled [⟨rw11, p0⟩] S256x128.size (by rfl) y

/-! ## The body -/

set_option maxHeartbeats 4000000 in
/-- The body, run on whole buffers holding the ten blocks and anything in the two result buffers, returns with the
    ten as they were and the two results at out10 and out11 of the ten. -/
theorem sound_kernel (c : Dev nD) (E : Set ℕ) (i : grid0.Coords) (arg1 : Memref sig .tc .vmem S256x512 .f32) (harg1 : arg1.IsWhole) (arg2 : Memref sig .tc .vmem S256x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S1x3072 .f32) (harg6 : arg6.IsWhole) (arg7 : Memref sig .tc .vmem S1024x3072 .bf16) (harg7 : arg7.IsWhole) (arg8 : Memref sig .tc .vmem S1x3072 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S256x1024 .f32) (harg11 : arg11.IsWhole) (arg12 : Memref sig .tc .vmem S256x128 .f32) (harg12 : arg12.IsWhole)
    (x0 : Vec F S256x512 .f32) (x1 : Vec F S256x1024 .f32) (x2 : Vec F S512x1024 .bf16) (x3 : Vec F S1x1024 .f32) (x4 : Vec F S1024x3072 .bf16) (x5 : Vec F S1x3072 .f32) (x6 : Vec F S1024x3072 .bf16) (x7 : Vec F S1x3072 .f32) (x8 : Vec F S1024x128 .bf16) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out10 x0 x1 x2 x3 x4 x5 x6 x7 x8 x9) ∗ owns (c : Thread nD τ) arg12 fullShare (out11 x0 x1 x2 x3 x4 x5 x6 x7 x8 x9)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover10 _)
  iexists _; isplitr
  swap; · iexact H11
  ipureintro
  try dsimp only
  exact View.read_writes_eq_canon _ _ _ (cover11 _)

/-! ## The proof data of the grid -/

/-- The arrays as the grid finds them; after the body at point t each buffer read holds its block still and each
    result buffer holds out10 / out11 of the ten blocks; the invariant is the untouched rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out11 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after11 (c : Dev nD) (t : Fin cfg0.N) : (dats m 0 c).after 11 t = out11 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body at a point of the grid -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- At any point the buffers read hold their blocks, so sound_kernel applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, faulting nowhere, with every array a window stages at
    what the write-backs of the proof data leave and every other buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with every array read back: the two results end at what the write-backs leave, each of the eighteen
    arguments as launched. -/
theorem run_named : θ_run defs (onTc (τ := τ) (main (F := F))) ⟨m, fun _ => 0, ρ⟩ (fun r => ∀ c : Dev nD,
      r.2.mem ((c.tc : Thread nD τ).loc main_v16_1) = (dats m 0 c).arrAt 11 cfg0.N
      ∧ r.2.mem ((c.tc : Thread nD τ).loc main_v16_0) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c).1 11, (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) (run_main m ρ)

/-- The frame: the program runs to the end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2.2) (run_named m ρ)

end Cert.Kernel.Hand

end
-- ==== Proof.KernelIdealRun.lean ====
import proofs.«162858_j61040075211058_2_alg».proof.Proof.Gen.KernelIdeal.Launch
import proofs.«162858_j61040075211058_2_alg».proof.Proof.Gen.KernelIdeal.Skeleton
import proofs.«162858_j61040075211058_2_alg».proof.Proof.Gen.KernelIdeal.Points
import Idealize.ShloMosaic.Lib.Pipeline.FrameBody
import Idealize.ShloMosaic.Lib.Ring
import Idealize.ShloMosaic.Lib.Tactic

/-!
# The run of the gated recurrent cell's program

The program is a line of host operations (the weight matrices transposed, the three gate matrices of each side
stacked into one, the bias vectors stacked and laid out as rows) followed by one grid of 128 points.  At point
t the body is handed rows 256·t … 256·t+255 of the two batch arrays and the whole of every weight and
bias array, and stores one block of each of the two results.  This file states what the body leaves in the two
result blocks as a function of the ten blocks it reads, proves that the body does so, and concludes that every
weakly fair execution ends with every array named: the results block by block, every other array as it was.
The statements hold at every number format.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the grid -/

/-- The contents of core c's buffers when the grid is entered: the launch contents after the host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the grid finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 1: the grid finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 2: the grid finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 3: the grid finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 4: the grid finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 5: the grid finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 6: the grid finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 7: the grid finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 8: the grid finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 9: the grid finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 10: the grid finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 11: the grid finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 12: the grid finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 13: the grid finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 14: the grid finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 15: the grid finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 16: the grid finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))
/-- No host operation writes argument 17: the grid finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.unary_writes, StableHlo.reshape_writes, StableHlo.nary_writes, Finset.mem_singleton]
    repeat' apply And.intro
    all_goals exact StableHlo.devRef_ne_of_ne (by decide)))

/-! ## The blocks the body reads -/

/-- A window's block at point t, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffer the body reads window 0 from holds that window's block at every point, fetched there or kept
    from the point before. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 1 from holds that window's block at every point, fetched there or kept
    from the point before. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 2 from holds that window's block at every point, fetched there or kept
    from the point before. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 3 from holds that window's block at every point, fetched there or kept
    from the point before. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 4 from holds that window's block at every point, fetched there or kept
    from the point before. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 5 from holds that window's block at every point, fetched there or kept
    from the point before. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 6 from holds that window's block at every point, fetched there or kept
    from the point before. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 7 from holds that window's block at every point, fetched there or kept
    from the point before. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 8 from holds that window's block at every point, fetched there or kept
    from the point before. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- The buffer the body reads window 9 from holds that window's block at every point, fetched there or kept
    from the point before. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the two result blocks -/

abbrev rw0 : Rect S256x512 := Rect.unit (s := S256x512) ![0, 0] S256x512.size inb_S256x512_S256x512_0_0
abbrev rw1 : Rect S256x1024 := Rect.unit (s := S256x1024) ![0, 0] S256x1024.size inb_S256x1024_S256x1024_0_0
abbrev rw2 : Rect S512x1024 := Rect.unit (s := S512x1024) ![0, 0] S512x1024.size inb_S512x1024_S512x1024_0_0
abbrev rw3 : Rect S1x1024 := Rect.unit (s := S1x1024) ![0, 0] S1x1024.size inb_S1x1024_S1x1024_0_0
abbrev rw4 : Rect S1024x3072 := Rect.unit (s := S1024x3072) ![0, 0] S1024x3072.size inb_S1024x3072_S1024x3072_0_0
abbrev rw5 : Rect S1x3072 := Rect.unit (s := S1x3072) ![0, 0] S1x3072.size inb_S1x3072_S1x3072_0_0
abbrev rw6 : Rect S1024x3072 := Rect.unit (s := S1024x3072) ![0, 0] S1024x3072.size inb_S1024x3072_S1024x3072_0_0
abbrev rw7 : Rect S1x3072 := Rect.unit (s := S1x3072) ![0, 0] S1x3072.size inb_S1x3072_S1x3072_0_0
abbrev rw8 : Rect S1024x128 := Rect.unit (s := S1024x128) ![0, 0] S1024x128.size inb_S1024x128_S1024x128_0_0
abbrev rw9 : Rect S1x128 := Rect.unit (s := S1x128) ![0, 0] S1x128.size inb_S1x128_S1x128_0_0
abbrev rw10 : Rect S256x1024 := Rect.unit (s := S256x1024) ![0, 0] S256x1024.size inb_S256x1024_S256x1024_0_0
abbrev rw11 : Rect S256x128 := Rect.unit (s := S256x128) ![0, 0] S256x128.size inb_S256x128_S256x128_0_0

/-- The new hidden state's block, from the ten blocks read: (1 - z)·n + z·h. -/
def out10 (x0 : Vec F S256x512 .f32) (x1 : Vec F S256x1024 .f32) (x2 : Vec F S512x1024 .bf16) (x3 : Vec F S1x1024 .f32) (x4 : Vec F S1024x3072 .bf16) (x5 : Vec F S1x3072 .f32) (x6 : Vec F S1024x3072 .bf16) (x7 : Vec F S1x3072 .f32) (x8 : Vec F S1024x128 .bf16) (x9 : Vec F S1x128 .f32) : Vec F S256x1024 .f32 :=
  View.canon [⟨rw10, k0_pay1 (View.ld x1 rw1) (k0_pay5 (View.ld x0 rw0) (View.ld x1 rw1) (View.ld x2 rw2) (View.ld x3 rw3) (View.ld x4 rw4) (View.ld x5 rw5) (View.ld x6 rw6) (View.ld x7 rw7)) (k0_pay6 (View.ld x0 rw0) (View.ld x2 rw2) (View.ld x3 rw3) (View.ld x4 rw4) (View.ld x5 rw5)) (k0_pay7 (View.ld x0 rw0) (View.ld x1 rw1) (View.ld x2 rw2) (View.ld x3 rw3) (View.ld x4 rw4) (View.ld x5 rw5) (View.ld x6 rw6) (View.ld x7 rw7))⟩]

/-- The action values' block, from the ten blocks read: 10·tanh(h'·W2ᵀ + b2). -/
def out11 (x0 : Vec F S256x512 .f32) (x1 : Vec F S256x1024 .f32) (x2 : Vec F S512x1024 .bf16) (x3 : Vec F S1x1024 .f32) (x4 : Vec F S1024x3072 .bf16) (x5 : Vec F S1x3072 .f32) (x6 : Vec F S1024x3072 .bf16) (x7 : Vec F S1x3072 .f32) (x8 : Vec F S1024x128 .bf16) (x9 : Vec F S1x128 .f32) : Vec F S256x128 .f32 :=
  View.canon [⟨rw11, k0_pay2 (View.ld x1 rw1) (k0_pay5 (View.ld x0 rw0) (View.ld x1 rw1) (View.ld x2 rw2) (View.ld x3 rw3) (View.ld x4 rw4) (View.ld x5 rw5) (View.ld x6 rw6) (View.ld x7 rw7)) (k0_pay6 (View.ld x0 rw0) (View.ld x2 rw2) (View.ld x3 rw3) (View.ld x4 rw4) (View.ld x5 rw5)) (k0_pay7 (View.ld x0 rw0) (View.ld x1 rw1) (View.ld x2 rw2) (View.ld x3 rw3) (View.ld x4 rw4) (View.ld x5 rw5) (View.ld x6 rw6) (View.ld x7 rw7)) (View.ld x8 rw8) (View.ld x9 rw9)⟩]

/-- One store of the whole block covers it. -/
theorem cover10 (p0 : Vec F S256x1024 .f32) (y : S256x1024.Idx) :
    ∃ pc ∈ ([⟨rw10, p0⟩] : List (View.Piece (Elt F) S256x1024 .f32)), y ∈ pc.1.set :=
  View.cover_of_tiled [⟨rw10, p0⟩] S256x1024.size (by rfl) y
theorem cover11 (p0 : Vec F S256x128 .f32) (y : S256x128.Idx) :
    ∃ pc ∈ ([⟨rw11, p0⟩] : List (View.Piece (Elt F) S256x128 .f32)), y ∈ pc.1.set :=
  View.cover_of_tiled [⟨rw11, p0⟩] S256x128.size (by rfl) y

/-! ## The body -/

set_option maxHeartbeats 4000000 in
/-- The body, run on whole buffers holding the ten blocks and anything in the two result buffers, returns with the
    ten as they were and the two results at out10 and out11 of the ten. -/
theorem sound_kernel (c : Dev nD) (E : Set ℕ) (i : grid0.Coords) (arg1 : Memref sig .tc .vmem S256x512 .f32) (harg1 : arg1.IsWhole) (arg2 : Memref sig .tc .vmem S256x1024 .f32) (harg2 : arg2.IsWhole) (arg3 : Memref sig .tc .vmem S512x1024 .bf16) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S1x3072 .f32) (harg6 : arg6.IsWhole) (arg7 : Memref sig .tc .vmem S1024x3072 .bf16) (harg7 : arg7.IsWhole) (arg8 : Memref sig .tc .vmem S1x3072 .f32) (harg8 : arg8.IsWhole) (arg9 : Memref sig .tc .vmem S1024x128 .bf16) (harg9 : arg9.IsWhole) (arg10 : Memref sig .tc .vmem S1x128 .f32) (harg10 : arg10.IsWhole) (arg11 : Memref sig .tc .vmem S256x1024 .f32) (harg11 : arg11.IsWhole) (arg12 : Memref sig .tc .vmem S256x128 .f32) (harg12 : arg12.IsWhole)
    (x0 : Vec F S256x512 .f32) (x1 : Vec F S256x1024 .f32) (x2 : Vec F S512x1024 .bf16) (x3 : Vec F S1x1024 .f32) (x4 : Vec F S1024x3072 .bf16) (x5 : Vec F S1x3072 .f32) (x6 : Vec F S1024x3072 .bf16) (x7 : Vec F S1x3072 .f32) (x8 : Vec F S1024x128 .bf16) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (out10 x0 x1 x2 x3 x4 x5 x6 x7 x8 x9) ∗ owns (c : Thread nD τ) arg12 fullShare (out11 x0 x1 x2 x3 x4 x5 x6 x7 x8 x9)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    try dsimp only
    exact View.read_writes_eq_canon _ _ _ (cover10 _)
  iexists _; isplitr
  swap; · iexact H11
  ipureintro
  try dsimp only
  exact View.read_writes_eq_canon _ _ _ (cover11 _)

/-! ## The proof data of the grid -/

/-- The arrays as the grid finds them; after the body at point t each buffer read holds its block still and each
    result buffer holds out10 / out11 of the ten blocks; the invariant is the untouched rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
    | ⟨11, _⟩ => out11 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]
theorem after11 (c : Dev nD) (t : Fin cfg0.N) : (dats m 0 c).after 11 t = out11 (iblk m c 0 t) (iblk m c 1 t) (iblk m c 2 t) (iblk m c 3 t) (iblk m c 4 t) (iblk m c 5 t) (iblk m c 6 t) (iblk m c 7 t) (iblk m c 8 t) (iblk m c 9 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d

/-! ## The body at a point of the grid -/

/-- What the body is called with at point t, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
/-- At any point the buffers read hold their blocks, so sound_kernel applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of the program terminates, faulting nowhere, with every array a window stages at
    what the write-backs of the proof data leave and every other buffer as the grid found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with every array read back: the two results end at what the write-backs leave, each of the eighteen
    arguments as launched. -/
theorem run_named : θ_run defs (onTc (τ := τ) (main (F := F))) ⟨m, fun _ => 0, ρ⟩ (fun r => ∀ c : Dev nD,
      r.2.mem ((c.tc : Thread nD τ).loc main_v16_1) = (dats m 0 c).arrAt 11 cfg0.N
      ∧ r.2.mem ((c.tc : Thread nD τ).loc main_v16_0) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c).1 11, (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) (run_main m ρ)

/-- The frame: the program runs to the end and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2.2) (run_named m ρ)

end Cert.KernelIdeal.Hand

end
-- ==== Proof.GruSpec.lean ====
import Idealize.ShloMosaic.PureOps.Ideal
import Idealize.ShloMosaic.PureOps.Ideal.Laws
import Idealize.ShloMosaic.Lib.ValueIdx
import Idealize.ShloMosaic.Lib.IdealHost

/-!
# One step of a gated recurrent cell between two dense layers, on the extended reals

For one row of observations a (512 numbers) and one row of the previous hidden state h (1024 numbers):

* feat = max (W1·a + b1, 0), the first dense layer with its rectifier;
* r = σ((Wxr·feat + bxr) + (Whr·h + bhr)) and z likewise with the z matrices, σ the logistic function;
* n = tanh((Wxn·feat + bxn) + r·(Whn·h + bhn));
* h' = (1 − z)·n + z·h;
* q = 10·tanh(W2·h' + b2).

Every matrix is stored one output per row, so the j-th output of a dense layer is the sum over k of
x k · W (j, k), plus b j.  The definitions are stated for all extended reals: nothing here needs an entry to be
finite, because the two programs compared against this specification differ from it only in the order in which
sums are grouped, and addition of extended reals is associative and commutative everywhere.
-/

noncomputable section

open scoped BigOperators

namespace Cert.Gru

open Idealize.ShloMosaic Idealize.ShloMosaic.ValueIdx

/-- An a × b array of extended reals. -/
abbrev Mat (a b : Nat) : Type := (⟨2, ![a, b]⟩ : Shape).Idx → EReal
/-- A vector of a extended reals. -/
abbrev Vect (a : Nat) : Type := (⟨1, ![a]⟩ : Shape).Idx → EReal

/-- Output j of a dense layer: the sum over k of x k · W (j, k), plus b j. -/
def dense {K N : Nat} (x : Fin K → EReal) (W : Mat N K) (b : Vect N) (j : Fin N) : EReal :=
  (∑ k : Fin K, x k * W (ix2 j k)) + b (ix1 j)

section
variable (W1 : Mat 1024 512) (b1 : Vect 1024)

/-- The rectified first layer. -/
def feat (a : Fin 512 → EReal) (k : Fin 1024) : EReal :=
  max (dense a W1 b1 k) (Ideal.ofBits .f32 0x00000000#32)

/-- A gate: the logistic function of the sum of a dense layer of the features and a dense layer of the state. -/
def gate (Wx : Mat 1024 1024) (bx : Vect 1024) (Wh : Mat 1024 1024) (bh : Vect 1024)
    (a : Fin 512 → EReal) (h : Fin 1024 → EReal) (j : Fin 1024) : EReal :=
  Ideal.logistic (dense (feat W1 b1 a) Wx bx j + dense h Wh bh j)

/-- The candidate state, given the value rv of the reset gate at j. -/
def cand (Wx : Mat 1024 1024) (bx : Vect 1024) (Wh : Mat 1024 1024) (bh : Vect 1024)
    (a : Fin 512 → EReal) (h : Fin 1024 → EReal) (rv : EReal) (j : Fin 1024) : EReal :=
  Ideal.tanh (dense (feat W1 b1 a) Wx bx j + rv * dense h Wh bh j)

variable (Wxr : Mat 1024 1024) (bxr : Vect 1024) (Whr : Mat 1024 1024) (bhr : Vect 1024)
  (Wxz : Mat 1024 1024) (bxz : Vect 1024) (Whz : Mat 1024 1024) (bhz : Vect 1024)
  (Wxn : Mat 1024 1024) (bxn : Vect 1024) (Whn : Mat 1024 1024) (bhn : Vect 1024)

/-- The new hidden state: (1 − z)·n + z·h. -/
def hNew (a : Fin 512 → EReal) (h : Fin 1024 → EReal) (j : Fin 1024) : EReal :=
  (Ideal.ofBits .f32 0x3F800000#32 - gate W1 b1 Wxz bxz Whz bhz a h j)
      * cand W1 b1 Wxn bxn Whn bhn a h (gate W1 b1 Wxr bxr Whr bhr a h j) j
    + gate W1 b1 Wxz bxz Whz bhz a h j * h j

variable (W2 : Mat 128 1024) (b2 : Vect 128)

/-- The bounded action values: 10·tanh(W2·h' + b2). -/
def qVal (a : Fin 512 → EReal) (h : Fin 1024 → EReal) (j : Fin 128) : EReal :=
  Ideal.ofBits .f32 0x41200000#32
    * Ideal.tanh (dense (hNew W1 b1 Wxr bxr Whr bhr Wxz bxz Whz bhz Wxn bxn Whn bhn a h) W2 b2 j)

/-- The new hidden states of all 32768 rows. -/
def hArr (X : Mat 32768 512) (H : Mat 32768 1024) : Mat 32768 1024 := fun i =>
  hNew W1 b1 Wxr bxr Whr bhr Wxz bxz Whz bhz Wxn bxn Whn bhn (fun q => X (ix2 (i 0) q)) (fun k => H (ix2 (i 0) k)) (i 1)

/-- The action values of all 32768 rows. -/
def qArr (X : Mat 32768 512) (H : Mat 32768 1024) : Mat 32768 128 := fun i =>
  qVal W1 b1 Wxr bxr Whr bhr Wxz bxz Whz bhz Wxn bxn Whn bhn W2 b2 (fun q => X (ix2 (i 0) q)) (fun k => H (ix2 (i 0) k)) (i 1)

end

/-- The logistic function written out with the literal one: 1 / (1 + e^(−v)). -/
theorem logistic_written_out (v : EReal) :
    Ideal.div (Ideal.ofBits .f32 0x3F800000#32) (Ideal.ofBits .f32 0x3F800000#32 + Ideal.exp (-v)) = Ideal.logistic v := by
  rw [Ideal.ofBits_one_f32]; rfl

/-- Two dense layers added with their biases last are the two layers each with its own bias. -/
theorem add_regroup (p bx q bh : EReal) : ((p + bx) + q) + bh = (p + bx) + (q + bh) := add_assoc _ _ _

end Cert.Gru

end
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.KernelEntry.lean ====
import proofs.«162858_j61040075211058_2_alg».proof.Proof.Gen.KernelIdeal.Skeleton
import proofs.«162858_j61040075211058_2_alg».proof.Proof.GruSpec
import proofs.«162858_j61040075211058_2_alg».proof.Proof.LibPlainProduct
import Idealize.ShloMosaic.Lib.ValueLayout
import Idealize.ShloMosaic.Lib.Pipeline.Value

/-!
# What the body computes, entry by entry

The body works on a block of 256 rows.  It multiplies the rows by weight matrices that were transposed beforehand,
so its products are rows by columns; the three gate matrices of each side sit side by side in one matrix of 3072
columns (reset gate in columns 0…1023, update gate in 1024…2047, candidate in 2048…3071) and the body cuts the
product into the three ranges.  This file reads the body's two stored values at local row p and column j, and
shows that, when the staged matrices hold the argument matrices in that arrangement, they are the specification's
new hidden state and action value on row p of the two batch blocks.  No regrouping of sums is needed: the body
adds each side's bias to its own product, as the specification does.
-/

noncomputable section

open scoped BigOperators

namespace Cert.KernelIdeal.Entry

open Cert.KernelIdeal Cert.KernelIdeal.Gen Cert.Gru
open Idealize.ShloMosaic Idealize.ShloMosaic.ValueIdx

/-- A rows-by-columns product into the zero accumulator plus a one-row bias repeated down the rows, read at
    (p, c): the sum over k of x (p, k) · w (k, c), plus b (0, c). -/
theorem kdense_at {M K N : Nat} {φ₁ φ₂ : FTy} (x : FVec Ideal ⟨2, ![M, K]⟩ φ₁) (w : FVec Ideal ⟨2, ![K, N]⟩ φ₂)
    (b : FVec Ideal ⟨2, ![1, N]⟩ .f32)
    (hs : (⟨2, ![K, N]⟩ : Shape).ShapeCasts ⟨2, ![K, N]⟩) (hc : (⟨2, ![1, N]⟩ : Shape).ShapeCasts ⟨2, ![1, N]⟩)
    (hb : (⟨2, ![1, N]⟩ : Shape).Broadcasts ⟨2, ![M, N]⟩) (p : Fin M) (c : Fin N) :
    addf (matmul (DotDims.plain M K N) none x (shapeCast ⟨2, ![K, N]⟩ w hs) (constant (F := Ideal) ⟨2, ![M, N]⟩ .f32 0x00000000#32))
        (broadcastTo ⟨2, ![M, N]⟩ (shapeCast ⟨2, ![1, N]⟩ b hc) hb) (ix2 p c)
      = (∑ k : Fin K, x (ix2 p k) * w (ix2 k c)) + b (ix2 (0 : Fin 1) c) := by
  rw [addf_apply, broadcastTo_1b_ab_apply, shapeCast_self, shapeCast_self]
  show FloatOps.matmul (DotDims.plain M K N) none x w (constant (F := Ideal) ⟨2, ![M, N]⟩ .f32 0x00000000#32) (ix2 p c) + _ = _
  rw [PlainProduct.matmul_zero_plain]
  rfl

/-- Column o + j of a matrix of 3072 columns, for o the first column of a gate's range (0 the reset gate, 1024 the
    update gate, 2048 the candidate). -/
def col (o : Nat) (j : Fin 1024) (ho : o ≤ 2048 := by decide) : Fin 3072 := ⟨o + j.val, by have := j.isLt; omega⟩

variable (x0 : Vec Ideal S256x512 .f32) (x1 : Vec Ideal S256x1024 .f32) (x2 : Vec Ideal S512x1024 .bf16) (x3 : Vec Ideal S1x1024 .f32)
  (x4 : Vec Ideal S1024x3072 .bf16) (x5 : Vec Ideal S1x3072 .f32) (x6 : Vec Ideal S1024x3072 .bf16) (x7 : Vec Ideal S1x3072 .f32)
  (x8 : Vec Ideal S1024x128 .bf16) (x9 : Vec Ideal S1x128 .f32)
variable (p : Fin 256)

/-- The rectified first layer of local row p, from the blocks. -/
def kfeat (k : Fin 1024) : EReal :=
  max ((∑ q : Fin 512, x0 (ix2 p q) * x2 (ix2 q k)) + x3 (ix2 (0 : Fin 1) k)) (Ideal.ofBits .f32 0x00000000#32)

/-- The features' three gate layers side by side, at (p, c). -/
theorem pay3_at (c : Fin 3072) : k0_pay3 (F := Ideal) x0 x2 x3 x4 x5 (ix2 p c)
    = (∑ k : Fin 1024, kfeat x0 x2 x3 p k * x4 (ix2 k c)) + x5 (ix2 (0 : Fin 1) c) := by
  unfold k0_pay3
  refine (kdense_at (M := 256) (K := 1024) (N := 3072) _ x4 x5 _ _ _ p c).trans ?_
  refine congrArg (· + x5 (ix2 (0 : Fin 1) c)) (Finset.sum_congr rfl fun k _ => congrArg (· * x4 (ix2 k c)) ?_)
  exact congrArg (fun v => max v (Ideal.ofBits .f32 0x00000000#32))
    (kdense_at (M := 256) (K := 512) (N := 1024) (truncf (F := Ideal) .bf16 x0 bitsLt_bf16_f32) x2 x3 _ _ _ p k)

/-- The state's three gate layers side by side, at (p, c). -/
theorem pay4_at (c : Fin 3072) : k0_pay4 (F := Ideal) x1 x6 x7 (ix2 p c)
    = (∑ k : Fin 1024, x1 (ix2 p k) * x6 (ix2 k c)) + x7 (ix2 (0 : Fin 1) c) := by
  unfold k0_pay4
  exact kdense_at (M := 256) (K := 1024) (N := 3072) (truncf (F := Ideal) .bf16 x1 bitsLt_bf16_f32) x6 x7 _ _ _ p c

/-- The update gate at (p, j): the logistic function of the two sides' columns 1024 + j. -/
theorem pay5_at (j : Fin 1024) : k0_pay5 (F := Ideal) x0 x1 x2 x3 x4 x5 x6 x7 (ix2 p j)
    = Ideal.logistic (k0_pay3 (F := Ideal) x0 x2 x3 x4 x5 (ix2 p (col 1024 j)) + k0_pay4 (F := Ideal) x1 x6 x7 (ix2 p (col 1024 j))) := by
  unfold k0_pay5
  exact congrArg Ideal.logistic (congrArg₂ (· + ·) (slice2_axis1_apply 1024 _ _ p j (col 1024 j) rfl) (slice2_axis1_apply 1024 _ _ p j (col 1024 j) rfl))

/-- The features' candidate layer at (p, j): column 2048 + j. -/
theorem pay6_at (j : Fin 1024) : k0_pay6 (F := Ideal) x0 x2 x3 x4 x5 (ix2 p j) = k0_pay3 (F := Ideal) x0 x2 x3 x4 x5 (ix2 p (col 2048 j)) := by
  unfold k0_pay6
  exact slice2_axis1_apply 2048 _ _ p j (col 2048 j) rfl

/-- The reset gate times the state's candidate layer at (p, j). -/
theorem pay7_at (j : Fin 1024) : k0_pay7 (F := Ideal) x0 x1 x2 x3 x4 x5 x6 x7 (ix2 p j)
    = Ideal.logistic (k0_pay3 (F := Ideal) x0 x2 x3 x4 x5 (ix2 p (col 0 j)) + k0_pay4 (F := Ideal) x1 x6 x7 (ix2 p (col 0 j)))
      * k0_pay4 (F := Ideal) x1 x6 x7 (ix2 p (col 2048 j)) := by
  unfold k0_pay7
  exact congrArg₂ (· * ·)
    (congrArg Ideal.logistic (congrArg₂ (· + ·) (slice2_axis1_apply 0 _ _ p j (col 0 j) rfl)
      (slice2_axis1_apply 0 _ _ p j (col 0 j) rfl)))
    (slice2_axis1_apply 2048 _ _ p j (col 2048 j) rfl)

/-- The stored hidden-state value at an index, from the four values it is computed from: all its operations act
    entry by entry. -/
theorem pay1_at (v2 v35 v36 v38 : Vec Ideal S256x1024 .f32) (i : S256x1024.Idx) :
    k0_pay1 (F := Ideal) v2 v35 v36 v38 i
      = (Ideal.ofBits .f32 0x3F800000#32 - v35 i) * Ideal.tanh (v36 i + v38 i) + v35 i * v2 i := rfl

section
variable (W1 : Mat 1024 512) (b1 : Vect 1024) (Wxr : Mat 1024 1024) (bxr : Vect 1024) (Whr : Mat 1024 1024) (bhr : Vect 1024)
  (Wxz : Mat 1024 1024) (bxz : Vect 1024) (Whz : Mat 1024 1024) (bhz : Vect 1024)
  (Wxn : Mat 1024 1024) (bxn : Vect 1024) (Whn : Mat 1024 1024) (bhn : Vect 1024) (W2 : Mat 128 1024) (b2 : Vect 128)

/-- The staged weight blocks hold the argument matrices transposed, the gate matrices side by side, and the bias
    vectors as rows. -/
structure Staged : Prop where
  w1 : ∀ (q : Fin 512) (k : Fin 1024), x2 (ix2 q k) = W1 (ix2 k q)
  b1 : ∀ k : Fin 1024, x3 (ix2 (0 : Fin 1) k) = b1 (ix1 k)
  wxr : ∀ k j : Fin 1024, x4 (ix2 k (col 0 j)) = Wxr (ix2 j k)
  wxz : ∀ k j : Fin 1024, x4 (ix2 k (col 1024 j)) = Wxz (ix2 j k)
  wxn : ∀ k j : Fin 1024, x4 (ix2 k (col 2048 j)) = Wxn (ix2 j k)
  bxr : ∀ j : Fin 1024, x5 (ix2 (0 : Fin 1) (col 0 j)) = bxr (ix1 j)
  bxz : ∀ j : Fin 1024, x5 (ix2 (0 : Fin 1) (col 1024 j)) = bxz (ix1 j)
  bxn : ∀ j : Fin 1024, x5 (ix2 (0 : Fin 1) (col 2048 j)) = bxn (ix1 j)
  whr : ∀ k j : Fin 1024, x6 (ix2 k (col 0 j)) = Whr (ix2 j k)
  whz : ∀ k j : Fin 1024, x6 (ix2 k (col 1024 j)) = Whz (ix2 j k)
  whn : ∀ k j : Fin 1024, x6 (ix2 k (col 2048 j)) = Whn (ix2 j k)
  bhr : ∀ j : Fin 1024, x7 (ix2 (0 : Fin 1) (col 0 j)) = bhr (ix1 j)
  bhz : ∀ j : Fin 1024, x7 (ix2 (0 : Fin 1) (col 1024 j)) = bhz (ix1 j)
  bhn : ∀ j : Fin 1024, x7 (ix2 (0 : Fin 1) (col 2048 j)) = bhn (ix1 j)
  w2 : ∀ (k : Fin 1024) (j : Fin 128), x8 (ix2 k j) = W2 (ix2 j k)
  b2 : ∀ j : Fin 128, x9 (ix2 (0 : Fin 1) j) = b2 (ix1 j)

variable {x2 x3 x4 x5 x6 x7 x8 x9} {W1 b1 Wxr bxr Whr bhr Wxz bxz Whz bhz Wxn bxn Whn bhn W2 b2}
variable (S : Staged x2 x3 x4 x5 x6 x7 x8 x9 W1 b1 Wxr bxr Whr bhr Wxz bxz Whz bhz Wxn bxn Whn bhn W2 b2)
include S

/-- The features of local row p are the specification's features of that row. -/
theorem kfeat_eq (k : Fin 1024) : kfeat x0 x2 x3 p k = feat W1 b1 (fun q : Fin 512 => x0 (ix2 p q)) k := by
  unfold kfeat feat dense
  rw [S.b1 k]
  exact congrArg (fun v => max (v + b1 (ix1 k)) _) (Finset.sum_congr rfl fun q _ => by rw [S.w1 q k])

theorem gx0_eq (j : Fin 1024) : k0_pay3 (F := Ideal) x0 x2 x3 x4 x5 (ix2 p (col 0 j)) = dense (feat W1 b1 (fun q : Fin 512 => x0 (ix2 p q))) Wxr bxr j := by
  rw [pay3_at]
  unfold dense
  rw [S.bxr j]
  exact congrArg (· + bxr (ix1 j)) (Finset.sum_congr rfl fun k _ => by rw [kfeat_eq x0 p S k, S.wxr k j])

theorem gh0_eq (j : Fin 1024) : k0_pay4 (F := Ideal) x1 x6 x7 (ix2 p (col 0 j)) = dense (fun k : Fin 1024 => x1 (ix2 p k)) Whr bhr j := by
  rw [pay4_at]
  unfold dense
  rw [S.bhr j]
  exact congrArg (· + bhr (ix1 j)) (Finset.sum_congr rfl fun k _ => by rw [S.whr k j])

theorem gx1_eq (j : Fin 1024) : k0_pay3 (F := Ideal) x0 x2 x3 x4 x5 (ix2 p (col 1024 j)) = dense (feat W1 b1 (fun q : Fin 512 => x0 (ix2 p q))) Wxz bxz j := by
  rw [pay3_at]
  unfold dense
  rw [S.bxz j]
  exact congrArg (· + bxz (ix1 j)) (Finset.sum_congr rfl fun k _ => by rw [kfeat_eq x0 p S k, S.wxz k j])

theorem gh1_eq (j : Fin 1024) : k0_pay4 (F := Ideal) x1 x6 x7 (ix2 p (col 1024 j)) = dense (fun k : Fin 1024 => x1 (ix2 p k)) Whz bhz j := by
  rw [pay4_at]
  unfold dense
  rw [S.bhz j]
  exact congrArg (· + bhz (ix1 j)) (Finset.sum_congr rfl fun k _ => by rw [S.whz k j])

theorem gx2_eq (j : Fin 1024) : k0_pay3 (F := Ideal) x0 x2 x3 x4 x5 (ix2 p (col 2048 j)) = dense (feat W1 b1 (fun q : Fin 512 => x0 (ix2 p q))) Wxn bxn j := by
  rw [pay3_at]
  unfold dense
  rw [S.bxn j]
  exact congrArg (· + bxn (ix1 j)) (Finset.sum_congr rfl fun k _ => by rw [kfeat_eq x0 p S k, S.wxn k j])

theorem gh2_eq (j : Fin 1024) : k0_pay4 (F := Ideal) x1 x6 x7 (ix2 p (col 2048 j)) = dense (fun k : Fin 1024 => x1 (ix2 p k)) Whn bhn j := by
  rw [pay4_at]
  unfold dense
  rw [S.bhn j]
  exact congrArg (· + bhn (ix1 j)) (Finset.sum_congr rfl fun k _ => by rw [S.whn k j])

/-- The stored hidden-state value at (p, j) is the specification's new hidden state of row p. -/
theorem hblock_at (j : Fin 1024) : (k0_pay1 (F := Ideal) x1 (k0_pay5 (F := Ideal) x0 x1 x2 x3 x4 x5 x6 x7) (k0_pay6 (F := Ideal) x0 x2 x3 x4 x5) (k0_pay7 (F := Ideal) x0 x1 x2 x3 x4 x5 x6 x7)) (ix2 p j) = hNew W1 b1 Wxr bxr Whr bhr Wxz bxz Whz bhz Wxn bxn Whn bhn (fun q : Fin 512 => x0 (ix2 p q)) (fun k : Fin 1024 => x1 (ix2 p k)) j := by
  rw [pay1_at, pay5_at, pay6_at, pay7_at, gx0_eq (S := S), gh0_eq (S := S), gx1_eq (S := S), gh1_eq (S := S), gx2_eq (S := S), gh2_eq (S := S)]
  rfl

/-- The stored action value at (p, j) is the specification's action value of row p. -/
theorem qblock_at (j : Fin 128) :
    k0_pay2 (F := Ideal) x1 (k0_pay5 (F := Ideal) x0 x1 x2 x3 x4 x5 x6 x7) (k0_pay6 (F := Ideal) x0 x2 x3 x4 x5) (k0_pay7 (F := Ideal) x0 x1 x2 x3 x4 x5 x6 x7) x8 x9 (ix2 p j)
      = qVal W1 b1 Wxr bxr Whr bhr Wxz bxz Whz bhz Wxn bxn Whn bhn W2 b2 (fun q : Fin 512 => x0 (ix2 p q)) (fun k : Fin 1024 => x1 (ix2 p k)) j := by
  unfold k0_pay2
  show Ideal.ofBits .f32 0x41200000#32 * Ideal.tanh (addf (matmul dot_S256x1024_S1024x128_S256x128_1_0_0_1_n_n none
      (truncf (F := Ideal) .bf16 (k0_pay1 (F := Ideal) x1 (k0_pay5 (F := Ideal) x0 x1 x2 x3 x4 x5 x6 x7) (k0_pay6 (F := Ideal) x0 x2 x3 x4 x5) (k0_pay7 (F := Ideal) x0 x1 x2 x3 x4 x5 x6 x7)) bitsLt_bf16_f32) (shapeCast S1024x128 x8 shapeCasts_S1024x128_S1024x128) (constant (F := Ideal) S256x128 .f32 0x00000000#32))
      (broadcastTo S256x128 (shapeCast S1x128 x9 shapeCasts_S1x128_S1x128) broadcasts_S1x128_S256x128) (ix2 p j)) = _
  rw [show addf (matmul dot_S256x1024_S1024x128_S256x128_1_0_0_1_n_n none
      (truncf (F := Ideal) .bf16 (k0_pay1 (F := Ideal) x1 (k0_pay5 (F := Ideal) x0 x1 x2 x3 x4 x5 x6 x7) (k0_pay6 (F := Ideal) x0 x2 x3 x4 x5) (k0_pay7 (F := Ideal) x0 x1 x2 x3 x4 x5 x6 x7)) bitsLt_bf16_f32) (shapeCast S1024x128 x8 shapeCasts_S1024x128_S1024x128) (constant (F := Ideal) S256x128 .f32 0x00000000#32))
      (broadcastTo S256x128 (shapeCast S1x128 x9 shapeCasts_S1x128_S1x128) broadcasts_S1x128_S256x128) (ix2 p j)
        = dense (hNew W1 b1 Wxr bxr Whr bhr Wxz bxz Whz bhz Wxn bxn Whn bhn (fun q : Fin 512 => x0 (ix2 p q)) (fun k : Fin 1024 => x1 (ix2 p k))) W2 b2 j from
    (kdense_at (M := 256) (K := 1024) (N := 128) (truncf (F := Ideal) .bf16 (k0_pay1 (F := Ideal) x1 (k0_pay5 (F := Ideal) x0 x1 x2 x3 x4 x5 x6 x7) (k0_pay6 (F := Ideal) x0 x2 x3 x4 x5) (k0_pay7 (F := Ideal) x0 x1 x2 x3 x4 x5 x6 x7)) bitsLt_bf16_f32) x8 x9 _ _ _ p j).trans (by
      unfold dense
      rw [S.b2 j]
      exact congrArg (· + b2 (ix1 j)) (Finset.sum_congr rfl fun k _ => by
        rw [S.w2 k j]
        exact congrArg (· * W2 (ix2 j k)) (hblock_at x0 x1 p S k)))]
  rfl

end

end Cert.KernelIdeal.Entry

end
-- ==== Proof.KernelStaged.lean ====
import proofs.«162858_j61040075211058_2_alg».proof.Proof.KernelIdealRun
import proofs.«162858_j61040075211058_2_alg».proof.Proof.KernelEntry
import Idealize.ShloMosaic.Lib.ValueLayout
import Idealize.ShloMosaic.Lib.Pipeline.Value
import Idealize.ShloMosaic.Lib.StableHlo.Run

/-!
# The blocks the body is handed, in terms of the arguments

At point t the two batch windows hold rows 256·t … 256·t + 255 of the two batch arrays, and every weight and bias
window holds the whole of its array, whichever the point.  Those arrays were written by the host operations before
the grid: a weight matrix transposed; three gate matrices stacked one above the other and the stack transposed, so
that gate g occupies columns 1024·g … 1024·g + 1023; a bias vector, or three of them end to end, laid out as one
row.  Read entry by entry this is the arrangement the body's arithmetic was shown to need.
-/

set_option maxRecDepth 16384

noncomputable section

namespace Cert.KernelIdeal.Staged

open Cert.KernelIdeal Cert.KernelIdeal.Gen Cert.KernelIdeal.Hand Cert.KernelIdeal.Entry Cert.Gru
open Idealize.ShloMosaic Idealize.ShloMosaic.ValueIdx Idealize.ShloMosaic.TcCoe Idealize.SL.Sem
open Idealize.ShloMosaic.Pipeline (Dat Cfg Window)

/-! ## Three pieces joined along the leading axis -/

section Join
variable {α : Type}

/-- Three 1024 × 1024 matrices stacked: row o + j of the stack is row j of the piece that starts at row o. -/
theorem stack_at (A B C : (⟨2, ![1024, 1024]⟩ : Shape).Idx → α)
    (h : Shape.Concatenates (([⟨⟨2, ![1024, 1024]⟩, A⟩, ⟨⟨2, ![1024, 1024]⟩, B⟩, ⟨⟨2, ![1024, 1024]⟩, C⟩] : List ((s : Shape) × (s.Idx → α))).map (·.1)) ⟨2, ![3072, 1024]⟩ 0)
    (j k : Fin 1024) :
    concatenate ⟨2, ![3072, 1024]⟩ 0 [⟨⟨2, ![1024, 1024]⟩, A⟩, ⟨⟨2, ![1024, 1024]⟩, B⟩, ⟨⟨2, ![1024, 1024]⟩, C⟩] h (ix2 (col 0 j) k) = A (ix2 j k)
    ∧ concatenate ⟨2, ![3072, 1024]⟩ 0 [⟨⟨2, ![1024, 1024]⟩, A⟩, ⟨⟨2, ![1024, 1024]⟩, B⟩, ⟨⟨2, ![1024, 1024]⟩, C⟩] h (ix2 (col 1024 j) k) = B (ix2 j k)
    ∧ concatenate ⟨2, ![3072, 1024]⟩ 0 [⟨⟨2, ![1024, 1024]⟩, A⟩, ⟨⟨2, ![1024, 1024]⟩, B⟩, ⟨⟨2, ![1024, 1024]⟩, C⟩] h (ix2 (col 2048 j) k) = C (ix2 j k) := by
  have off : ∀ b : Fin 2, b.cast (rfl : (2 : Nat) = 2) ≠ (0 : Fin 2) → ∀ o : Nat, ∀ ho, ((ix2 j k : (⟨2, ![1024, 1024]⟩ : Shape).Idx) b).val = ((ix2 (col o j ho) k : (⟨2, ![3072, 1024]⟩ : Shape).Idx) (b.cast rfl)).val := by
    intro b hb o ho
    match b with
    | ⟨0, _⟩ => exact absurd rfl hb
    | ⟨1, _⟩ => rfl
  refine ⟨?_, ?_, ?_⟩
  · exact concatenate_apply_piece 0 _ h _ 0 (by show (0 : Nat) < 3; decide) ⟨2, ![1024, 1024]⟩ A rfl rfl 0 rfl (ix2 j k) (fun b hb => off b hb 0 _) rfl
  · exact concatenate_apply_piece 0 _ h _ 1 (by show (1 : Nat) < 3; decide) ⟨2, ![1024, 1024]⟩ B rfl rfl 1024 rfl (ix2 j k) (fun b hb => off b hb 1024 _) rfl
  · exact concatenate_apply_piece 0 _ h _ 2 (by show (2 : Nat) < 3; decide) ⟨2, ![1024, 1024]⟩ C rfl rfl 2048 rfl (ix2 j k) (fun b hb => off b hb 2048 _) rfl

/-- Three vectors of 1024 entries end to end: entry o + j is entry j of the piece that starts at o. -/
theorem join_at (A B C : (⟨1, ![1024]⟩ : Shape).Idx → α)
    (h : Shape.Concatenates (([⟨⟨1, ![1024]⟩, A⟩, ⟨⟨1, ![1024]⟩, B⟩, ⟨⟨1, ![1024]⟩, C⟩] : List ((s : Shape) × (s.Idx → α))).map (·.1)) ⟨1, ![3072]⟩ 0)
    (j : Fin 1024) :
    concatenate ⟨1, ![3072]⟩ 0 [⟨⟨1, ![1024]⟩, A⟩, ⟨⟨1, ![1024]⟩, B⟩, ⟨⟨1, ![1024]⟩, C⟩] h (ix1 (col 0 j)) = A (ix1 j)
    ∧ concatenate ⟨1, ![3072]⟩ 0 [⟨⟨1, ![1024]⟩, A⟩, ⟨⟨1, ![1024]⟩, B⟩, ⟨⟨1, ![1024]⟩, C⟩] h (ix1 (col 1024 j)) = B (ix1 j)
    ∧ concatenate ⟨1, ![3072]⟩ 0 [⟨⟨1, ![1024]⟩, A⟩, ⟨⟨1, ![1024]⟩, B⟩, ⟨⟨1, ![1024]⟩, C⟩] h (ix1 (col 2048 j)) = C (ix1 j) := by
  have off : ∀ b : Fin 1, b.cast (rfl : (1 : Nat) = 1) ≠ (0 : Fin 1) → ∀ o : Nat, ∀ ho, ((ix1 j : (⟨1, ![1024]⟩ : Shape).Idx) b).val = ((ix1 (col o j ho) : (⟨1, ![3072]⟩ : Shape).Idx) (b.cast rfl)).val :=
    fun b hb _ _ => absurd (Subsingleton.elim _ _) hb
  refine ⟨?_, ?_, ?_⟩
  · exact concatenate_apply_piece 0 _ h _ 0 (by show (0 : Nat) < 3; decide) ⟨1, ![1024]⟩ A rfl rfl 0 rfl (ix1 j) (fun b hb => off b hb 0 _) rfl
  · exact concatenate_apply_piece 0 _ h _ 1 (by show (1 : Nat) < 3; decide) ⟨1, ![1024]⟩ B rfl rfl 1024 rfl (ix1 j) (fun b hb => off b hb 1024 _) rfl
  · exact concatenate_apply_piece 0 _ h _ 2 (by show (2 : Nat) < 3; decide) ⟨1, ![1024]⟩ C rfl rfl 2048 rfl (ix1 j) (fun b hb => off b hb 2048 _) rfl

end Join

variable (m : (ℓ : Loc nD τ sig) → Buf (Elt Ideal) ℓ) (c : Dev nD)

/-! ## The staged arrays, entry by entry -/

/-- The first layer's weight, transposed. -/
theorem v1_at (q : Fin 512) (k : Fin 1024) : (V m c main_v1 : S512x1024.Idx → EReal) (ix2 q k) = (m ((c : Thread nD τ).loc main_arg2)) (ix2 k q) := by
  have e : (V m c main_v1 : S512x1024.Idx → EReal) = (truncf (F := Ideal) .bf16 (transpose S512x1024 [1, 0] (m ((c : Thread nD τ).loc main_arg2)) transposes_S1024x512_S512x1024_1_0) bitsLt_bf16_f32 : S512x1024.Idx → EReal) := by
    dsimp only [V, hostOps0]; after_results <;> rfl
  rw [e]
  exact transpose_ix2_apply _ _ q k

/-- The last layer's weight, transposed. -/
theorem v9_at (k : Fin 1024) (j : Fin 128) : (V m c main_v9 : S1024x128.Idx → EReal) (ix2 k j) = (m ((c : Thread nD τ).loc main_arg16)) (ix2 j k) := by
  have e : (V m c main_v9 : S1024x128.Idx → EReal) = (truncf (F := Ideal) .bf16 (transpose S1024x128 [1, 0] (m ((c : Thread nD τ).loc main_arg16)) transposes_S128x1024_S1024x128_1_0) bitsLt_bf16_f32 : S1024x128.Idx → EReal) := by
    dsimp only [V, hostOps0]; after_results <;> rfl
  rw [e]
  exact transpose_ix2_apply _ _ k j

/-- The first layer's bias as a row. -/
theorem v10_at (k : Fin 1024) : (V m c main_v10 : S1x1024.Idx → EReal) (ix2 (0 : Fin 1) k) = (m ((c : Thread nD τ).loc main_arg3)) (ix1 k) := by
  have e : (V m c main_v10 : S1x1024.Idx → EReal) = (shapeCast S1x1024 (m ((c : Thread nD τ).loc main_arg3)) shapeCasts_S1024_S1x1024 : S1x1024.Idx → EReal) := by
    dsimp only [V, hostOps0]; after_results <;> rfl
  rw [e]
  exact shapeCast_a_1a_apply _ _ 0 k

/-- The last layer's bias as a row. -/
theorem v15_at (j : Fin 128) : (V m c main_v15 : S1x128.Idx → EReal) (ix2 (0 : Fin 1) j) = (m ((c : Thread nD τ).loc main_arg17)) (ix1 j) := by
  have e : (V m c main_v15 : S1x128.Idx → EReal) = (shapeCast S1x128 (m ((c : Thread nD τ).loc main_arg17)) shapeCasts_S128_S1x128 : S1x128.Idx → EReal) := by
    dsimp only [V, hostOps0]; after_results <;> rfl
  rw [e]
  exact shapeCast_a_1a_apply _ _ 0 j

/-- The three feature-side gate matrices side by side: column o + j of the staged matrix is row j of the gate's. -/
theorem v4_at (k j : Fin 1024) :
    (V m c main_v4 : S1024x3072.Idx → EReal) (ix2 k (col 0 j)) = (m ((c : Thread nD τ).loc main_arg4)) (ix2 j k)
    ∧ (V m c main_v4 : S1024x3072.Idx → EReal) (ix2 k (col 1024 j)) = (m ((c : Thread nD τ).loc main_arg8)) (ix2 j k)
    ∧ (V m c main_v4 : S1024x3072.Idx → EReal) (ix2 k (col 2048 j)) = (m ((c : Thread nD τ).loc main_arg12)) (ix2 j k) := by
  have e : (V m c main_v4 : S1024x3072.Idx → EReal) = (truncf (F := Ideal) .bf16 (transpose S1024x3072 [1, 0] (concatenate S3072x1024 0 [⟨S1024x1024, (m ((c : Thread nD τ).loc main_arg4))⟩, ⟨S1024x1024, (m ((c : Thread nD τ).loc main_arg8))⟩, ⟨S1024x1024, (m ((c : Thread nD τ).loc main_arg12))⟩] concatenates_S1024x1024_S1024x1024_S1024x1024_S3072x1024_d0) transposes_S3072x1024_S1024x3072_1_0) bitsLt_bf16_f32 : S1024x3072.Idx → EReal) := by
    dsimp only [V, hostOps0]; after_results <;> rfl
  rw [e]
  obtain ⟨h0, h1, h2⟩ := stack_at (m ((c : Thread nD τ).loc main_arg4)) (m ((c : Thread nD τ).loc main_arg8)) (m ((c : Thread nD τ).loc main_arg12)) concatenates_S1024x1024_S1024x1024_S1024x1024_S3072x1024_d0 j k
  exact ⟨(transpose_ix2_apply _ _ k (col 0 j)).trans h0, (transpose_ix2_apply _ _ k (col 1024 j)).trans h1, (transpose_ix2_apply _ _ k (col 2048 j)).trans h2⟩

/-- The three state-side gate matrices side by side: column o + j of the staged matrix is row j of the gate's. -/
theorem v7_at (k j : Fin 1024) :
    (V m c main_v7 : S1024x3072.Idx → EReal) (ix2 k (col 0 j)) = (m ((c : Thread nD τ).loc main_arg6)) (ix2 j k)
    ∧ (V m c main_v7 : S1024x3072.Idx → EReal) (ix2 k (col 1024 j)) = (m ((c : Thread nD τ).loc main_arg10)) (ix2 j k)
    ∧ (V m c main_v7 : S1024x3072.Idx → EReal) (ix2 k (col 2048 j)) = (m ((c : Thread nD τ).loc main_arg14)) (ix2 j k) := by
  have e : (V m c main_v7 : S1024x3072.Idx → EReal) = (truncf (F := Ideal) .bf16 (transpose S1024x3072 [1, 0] (concatenate S3072x1024 0 [⟨S1024x1024, (m ((c : Thread nD τ).loc main_arg6))⟩, ⟨S1024x1024, (m ((c : Thread nD τ).loc main_arg10))⟩, ⟨S1024x1024, (m ((c : Thread nD τ).loc main_arg14))⟩] concatenates_S1024x1024_S1024x1024_S1024x1024_S3072x1024_d0) transposes_S3072x1024_S1024x3072_1_0) bitsLt_bf16_f32 : S1024x3072.Idx → EReal) := by
    dsimp only [V, hostOps0]; after_results <;> rfl
  rw [e]
  obtain ⟨h0, h1, h2⟩ := stack_at (m ((c : Thread nD τ).loc main_arg6)) (m ((c : Thread nD τ).loc main_arg10)) (m ((c : Thread nD τ).loc main_arg14)) concatenates_S1024x1024_S1024x1024_S1024x1024_S3072x1024_d0 j k
  exact ⟨(transpose_ix2_apply _ _ k (col 0 j)).trans h0, (transpose_ix2_apply _ _ k (col 1024 j)).trans h1, (transpose_ix2_apply _ _ k (col 2048 j)).trans h2⟩

/-- The three feature-side gate biases end to end, as a row. -/
theorem v12_at (j : Fin 1024) :
    (V m c main_v12 : S1x3072.Idx → EReal) (ix2 (0 : Fin 1) (col 0 j)) = (m ((c : Thread nD τ).loc main_arg5)) (ix1 j)
    ∧ (V m c main_v12 : S1x3072.Idx → EReal) (ix2 (0 : Fin 1) (col 1024 j)) = (m ((c : Thread nD τ).loc main_arg9)) (ix1 j)
    ∧ (V m c main_v12 : S1x3072.Idx → EReal) (ix2 (0 : Fin 1) (col 2048 j)) = (m ((c : Thread nD τ).loc main_arg13)) (ix1 j) := by
  have e : (V m c main_v12 : S1x3072.Idx → EReal) = (shapeCast S1x3072 (concatenate S3072 0 [⟨S1024, (m ((c : Thread nD τ).loc main_arg5))⟩, ⟨S1024, (m ((c : Thread nD τ).loc main_arg9))⟩, ⟨S1024, (m ((c : Thread nD τ).loc main_arg13))⟩] concatenates_S1024_S1024_S1024_S3072_d0) shapeCasts_S3072_S1x3072 : S1x3072.Idx → EReal) := by
    dsimp only [V, hostOps0]; after_results <;> rfl
  rw [e]
  obtain ⟨h0, h1, h2⟩ := join_at (m ((c : Thread nD τ).loc main_arg5)) (m ((c : Thread nD τ).loc main_arg9)) (m ((c : Thread nD τ).loc main_arg13)) concatenates_S1024_S1024_S1024_S3072_d0 j
  exact ⟨(shapeCast_a_1a_apply _ _ 0 (col 0 j)).trans h0, (shapeCast_a_1a_apply _ _ 0 (col 1024 j)).trans h1, (shapeCast_a_1a_apply _ _ 0 (col 2048 j)).trans h2⟩

/-- The three state-side gate biases end to end, as a row. -/
theorem v14_at (j : Fin 1024) :
    (V m c main_v14 : S1x3072.Idx → EReal) (ix2 (0 : Fin 1) (col 0 j)) = (m ((c : Thread nD τ).loc main_arg7)) (ix1 j)
    ∧ (V m c main_v14 : S1x3072.Idx → EReal) (ix2 (0 : Fin 1) (col 1024 j)) = (m ((c : Thread nD τ).loc main_arg11)) (ix1 j)
    ∧ (V m c main_v14 : S1x3072.Idx → EReal) (ix2 (0 : Fin 1) (col 2048 j)) = (m ((c : Thread nD τ).loc main_arg15)) (ix1 j) := by
  have e : (V m c main_v14 : S1x3072.Idx → EReal) = (shapeCast S1x3072 (concatenate S3072 0 [⟨S1024, (m ((c : Thread nD τ).loc main_arg7))⟩, ⟨S1024, (m ((c : Thread nD τ).loc main_arg11))⟩, ⟨S1024, (m ((c : Thread nD τ).loc main_arg15))⟩] concatenates_S1024_S1024_S1024_S3072_d0) shapeCasts_S3072_S1x3072 : S1x3072.Idx → EReal) := by
    dsimp only [V, hostOps0]; after_results <;> rfl
  rw [e]
  obtain ⟨h0, h1, h2⟩ := join_at (m ((c : Thread nD τ).loc main_arg7)) (m ((c : Thread nD τ).loc main_arg11)) (m ((c : Thread nD τ).loc main_arg15)) concatenates_S1024_S1024_S1024_S3072_d0 j
  exact ⟨(shapeCast_a_1a_apply _ _ 0 (col 0 j)).trans h0, (shapeCast_a_1a_apply _ _ 0 (col 1024 j)).trans h1, (shapeCast_a_1a_apply _ _ 0 (col 2048 j)).trans h2⟩

/-! ## The windows' blocks -/

/-- The block index of every window at every point: the two batch windows and the two result windows move down
    with the point, every other window stays on its one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- Row 256·t + p of a batch array. -/
def row (t : Fin cfg0.N) (p : Fin 256) : Fin 32768 :=
  ⟨t.val * 256 + p.val, by have := p.isLt; have : t.val < 128 := lt_of_lt_of_eq t.isLt N_0; omega⟩

/-- The observations' block at point t holds rows 256·t … of the observations. -/
theorem iblk0_at (t : Fin cfg0.N) (p : Fin 256) (q : Fin 512) :
    iblk m c 0 t (ix2 p q) = (m ((c : Thread nD τ).loc main_arg0)) (ix2 (row t p) q) := by
  show V m c main_arg0 (((cfg0.win 0).blk t).view.emb (ix2 p q)) = _
  rw [V_main_arg0]
  refine congrArg (m ((c : Thread nD τ).loc main_arg0)) (funext fun a => Fin.ext ?_)
  have e := idx_facts t
  match a with
  | ⟨0, _⟩ => show win0_0.index t (0 : Fin 2) * 256 + 1 * p.val = t.val * 256 + p.val; omega
  | ⟨1, _⟩ => show win0_0.index t (1 : Fin 2) * 512 + 1 * q.val = q.val; omega

/-- The state's block at point t holds rows 256·t … of the state. -/
theorem iblk1_at (t : Fin cfg0.N) (p : Fin 256) (k : Fin 1024) :
    iblk m c 1 t (ix2 p k) = (m ((c : Thread nD τ).loc main_arg1)) (ix2 (row t p) k) := by
  show V m c main_arg1 (((cfg0.win 1).blk t).view.emb (ix2 p k)) = _
  rw [V_main_arg1]
  refine congrArg (m ((c : Thread nD τ).loc main_arg1)) (funext fun a => Fin.ext ?_)
  have e := idx_facts t
  match a with
  | ⟨0, _⟩ => show win0_1.index t (0 : Fin 2) * 256 + 1 * p.val = t.val * 256 + p.val; omega
  | ⟨1, _⟩ => show win0_1.index t (1 : Fin 2) * 1024 + 1 * k.val = k.val; omega

/-- Window 2's block is the whole of its array at every point. -/
theorem iblk2_at (t : Fin cfg0.N) (y : S512x1024.Idx) : iblk m c 2 t y = (V m c main_v1 : S512x1024.Idx → EReal) y := by
  show V m c main_v1 (((cfg0.win 2).blk t).view.emb y) = V m c main_v1 y
  refine congrArg (V m c main_v1) (funext fun a => Fin.ext ?_)
  have e := idx_facts t
  match a with
  | ⟨0, _⟩ => show win0_2.index t (0 : Fin 2) * 512 + 1 * (y 0).val = (y 0).val; omega
  | ⟨1, _⟩ => show win0_2.index t (1 : Fin 2) * 1024 + 1 * (y 1).val = (y 1).val; omega

/-- Window 3's block is the whole of its array at every point. -/
theorem iblk3_at (t : Fin cfg0.N) (y : S1x1024.Idx) : iblk m c 3 t y = (V m c main_v10 : S1x1024.Idx → EReal) y := by
  show V m c main_v10 (((cfg0.win 3).blk t).view.emb y) = V m c main_v10 y
  refine congrArg (V m c main_v10) (funext fun a => Fin.ext ?_)
  have e := idx_facts t
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-- Window 4's block is the whole of its array at every point. -/
theorem iblk4_at (t : Fin cfg0.N) (y : S1024x3072.Idx) : iblk m c 4 t y = (V m c main_v4 : S1024x3072.Idx → EReal) y := by
  show V m c main_v4 (((cfg0.win 4).blk t).view.emb y) = V m c main_v4 y
  refine congrArg (V m c main_v4) (funext fun a => Fin.ext ?_)
  have e := idx_facts t
  match a with
  | ⟨0, _⟩ => show win0_4.index t (0 : Fin 2) * 1024 + 1 * (y 0).val = (y 0).val; omega
  | ⟨1, _⟩ => show win0_4.index t (1 : Fin 2) * 3072 + 1 * (y 1).val = (y 1).val; omega

/-- Window 5's block is the whole of its array at every point. -/
theorem iblk5_at (t : Fin cfg0.N) (y : S1x3072.Idx) : iblk m c 5 t y = (V m c main_v12 : S1x3072.Idx → EReal) y := by
  show V m c main_v12 (((cfg0.win 5).blk t).view.emb y) = V m c main_v12 y
  refine congrArg (V m c main_v12) (funext fun a => Fin.ext ?_)
  have e := idx_facts t
  match a with
  | ⟨0, _⟩ => show win0_5.index t (0 : Fin 2) * 1 + 1 * (y 0).val = (y 0).val; omega
  | ⟨1, _⟩ => show win0_5.index t (1 : Fin 2) * 3072 + 1 * (y 1).val = (y 1).val; omega

/-- Window 6's block is the whole of its array at every point. -/
theorem iblk6_at (t : Fin cfg0.N) (y : S1024x3072.Idx) : iblk m c 6 t y = (V m c main_v7 : S1024x3072.Idx → EReal) y := by
  show V m c main_v7 (((cfg0.win 6).blk t).view.emb y) = V m c main_v7 y
  refine congrArg (V m c main_v7) (funext fun a => Fin.ext ?_)
  have e := idx_facts t
  match a with
  | ⟨0, _⟩ => show win0_6.index t (0 : Fin 2) * 1024 + 1 * (y 0).val = (y 0).val; omega
  | ⟨1, _⟩ => show win0_6.index t (1 : Fin 2) * 3072 + 1 * (y 1).val = (y 1).val; omega

/-- Window 7's block is the whole of its array at every point. -/
theorem iblk7_at (t : Fin cfg0.N) (y : S1x3072.Idx) : iblk m c 7 t y = (V m c main_v14 : S1x3072.Idx → EReal) y := by
  show V m c main_v14 (((cfg0.win 7).blk t).view.emb y) = V m c main_v14 y
  refine congrArg (V m c main_v14) (funext fun a => Fin.ext ?_)
  have e := idx_facts t
  match a with
  | ⟨0, _⟩ => show win0_7.index t (0 : Fin 2) * 1 + 1 * (y 0).val = (y 0).val; omega
  | ⟨1, _⟩ => show win0_7.index t (1 : Fin 2) * 3072 + 1 * (y 1).val = (y 1).val; omega

/-- Window 8's block is the whole of its array at every point. -/
theorem iblk8_at (t : Fin cfg0.N) (y : S1024x128.Idx) : iblk m c 8 t y = (V m c main_v9 : S1024x128.Idx → EReal) y := by
  show V m c main_v9 (((cfg0.win 8).blk t).view.emb y) = V m c main_v9 y
  refine congrArg (V m c main_v9) (funext fun a => Fin.ext ?_)
  have e := idx_facts t
  match a with
  | ⟨0, _⟩ => show win0_8.index t (0 : Fin 2) * 1024 + 1 * (y 0).val = (y 0).val; omega
  | ⟨1, _⟩ => show win0_8.index t (1 : Fin 2) * 128 + 1 * (y 1).val = (y 1).val; omega

/-- Window 9's block is the whole of its array at every point. -/
theorem iblk9_at (t : Fin cfg0.N) (y : S1x128.Idx) : iblk m c 9 t y = (V m c main_v15 : S1x128.Idx → EReal) y := by
  show V m c main_v15 (((cfg0.win 9).blk t).view.emb y) = V m c main_v15 y
  refine congrArg (V m c main_v15) (funext fun a => Fin.ext ?_)
  have e := idx_facts t
  match a with
  | ⟨0, _⟩ => show win0_9.index t (0 : Fin 2) * 1 + 1 * (y 0).val = (y 0).val; omega
  | ⟨1, _⟩ => show win0_9.index t (1 : Fin 2) * 128 + 1 * (y 1).val = (y 1).val; omega

/-- At every point the weight and bias blocks hold the argument matrices in the arrangement the body's arithmetic
    needs. -/
theorem staged (t : Fin cfg0.N) :
    Entry.Staged (iblk m c 2 t) (iblk m c 3 t) (iblk m c 4 t) (iblk m c 5 t) (iblk m c 6 t) (iblk m c 7 t) (iblk m c 8 t) (iblk m c 9 t)
      (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) where
  w1 q k := (iblk2_at m c t _).trans (v1_at m c q k)
  b1 k := (iblk3_at m c t _).trans (v10_at m c k)
  wxr k j := (iblk4_at m c t _).trans (v4_at m c k j).1
  wxz k j := (iblk4_at m c t _).trans (v4_at m c k j).2.1
  wxn k j := (iblk4_at m c t _).trans (v4_at m c k j).2.2
  bxr j := (iblk5_at m c t _).trans (v12_at m c j).1
  bxz j := (iblk5_at m c t _).trans (v12_at m c j).2.1
  bxn j := (iblk5_at m c t _).trans (v12_at m c j).2.2
  whr k j := (iblk6_at m c t _).trans (v7_at m c k j).1
  whz k j := (iblk6_at m c t _).trans (v7_at m c k j).2.1
  whn k j := (iblk6_at m c t _).trans (v7_at m c k j).2.2
  bhr j := (iblk7_at m c t _).trans (v14_at m c j).1
  bhz j := (iblk7_at m c t _).trans (v14_at m c j).2.1
  bhn j := (iblk7_at m c t _).trans (v14_at m c j).2.2
  w2 k j := (iblk8_at m c t _).trans (v9_at m c k j)
  b2 j := (iblk9_at m c t _).trans (v15_at m c j)

end Cert.KernelIdeal.Staged

end
-- ==== Proof.KernelValue.lean ====
import proofs.«162858_j61040075211058_2_alg».proof.Proof.KernelIdealRun
import proofs.«162858_j61040075211058_2_alg».proof.Proof.KernelEntry
import proofs.«162858_j61040075211058_2_alg».proof.Proof.KernelStaged
import proofs.«162858_j61040075211058_2_alg».proof.Proof.GruSpec

/-!
# The kernel's two results as whole arrays

Point t writes back, into rows 256·t … 256·t + 255 of each result array, what the body stored.  Entry (p, j) of
that block was shown to be the specification's value on row p of the point's batch blocks, which are rows
256·t + p of the batch arrays: so the block written back is the same block of the specification's whole array.
The 128 blocks cover all 32768 rows (row r lies in block r / 256), hence each result array ends equal to the
specification's array.
-/

set_option maxRecDepth 16384

noncomputable section

namespace Cert.KernelIdeal.Whole

open Cert.KernelIdeal Cert.KernelIdeal.Gen Cert.KernelIdeal.Hand Cert.KernelIdeal.Entry Cert.KernelIdeal.Staged Cert.Gru
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

theorem hz : (![0, 0] : Fin 2 → Nat) = fun _ => 0 := funext fun a => by fin_cases a <;> rfl

/-- The specification's array of new hidden states, of core c's arguments. -/
abbrev HA : Mat 32768 1024 := hArr (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg0)) (m ((c : Thread nD τ).loc main_arg1))
/-- The specification's array of action values, of core c's arguments. -/
abbrev QA : Mat 32768 128 := qArr (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg0)) (m ((c : Thread nD τ).loc main_arg1))

/-- Entry (p, j) of a result block at point t is entry (256·t + p, j) of the array. -/
theorem emb10 (t : Fin cfg0.N) (p : Fin 256) (j : Fin 1024) : ((cfg0.win 10).blk t).view.emb (ix2 p j) = ix2 (row t p) j := by
  funext a; apply Fin.ext
  have e := idx_facts t
  match a with
  | ⟨0, _⟩ => show win0_10.index t (0 : Fin 2) * 256 + 1 * p.val = t.val * 256 + p.val; omega
  | ⟨1, _⟩ => show win0_10.index t (1 : Fin 2) * 1024 + 1 * j.val = j.val; omega
theorem emb11 (t : Fin cfg0.N) (p : Fin 256) (j : Fin 128) : ((cfg0.win 11).blk t).view.emb (ix2 p j) = ix2 (row t p) j := by
  funext a; apply Fin.ext
  have e := idx_facts t
  match a with
  | ⟨0, _⟩ => show win0_11.index t (0 : Fin 2) * 256 + 1 * p.val = t.val * 256 + p.val; omega
  | ⟨1, _⟩ => show win0_11.index t (1 : Fin 2) * 128 + 1 * j.val = j.val; omega

/-- What point t writes back to the hidden-state array is block t of the specification's array. -/
theorem flushed10_eq (t : Fin cfg0.N) :
    (dats m 0 c).flushed 10 t = ((cfg0.win 10).blk t).view.read (Elt Ideal) (HA m c) := by
  show (cfg0.win 10).cut (grid0.coords t) ((dats m 0 c).after 10 t) = _
  rw [after10]
  unfold out10
  rw [View.canon_unit_zero hz]
  simp only [View.ld_unit_zero (S := S256x512) hz, View.ld_unit_zero (S := S256x1024) hz, View.ld_unit_zero (S := S512x1024) hz, View.ld_unit_zero (S := S1x1024) hz, View.ld_unit_zero (S := S1024x3072) hz, View.ld_unit_zero (S := S1x3072) hz, View.ld_unit_zero (S := S1024x128) hz, View.ld_unit_zero (S := S1x128) hz]
  funext y
  obtain ⟨p, j, rfl⟩ : ∃ (p : Fin 256) (j : Fin 1024), y = ix2 p j := ⟨y 0, y 1, eq_ix2 y⟩
  show (k0_pay1 (F := Ideal) (iblk m c 1 t) (k0_pay5 (F := Ideal) (iblk m c 0 t) (iblk m c 1 t) (iblk m c 2 t) (iblk m c 3 t) (iblk m c 4 t) (iblk m c 5 t) (iblk m c 6 t) (iblk m c 7 t)) (k0_pay6 (F := Ideal) (iblk m c 0 t) (iblk m c 2 t) (iblk m c 3 t) (iblk m c 4 t) (iblk m c 5 t)) (k0_pay7 (F := Ideal) (iblk m c 0 t) (iblk m c 1 t) (iblk m c 2 t) (iblk m c 3 t) (iblk m c 4 t) (iblk m c 5 t) (iblk m c 6 t) (iblk m c 7 t))) (ix2 p j) = HA m c (((cfg0.win 10).blk t).view.emb (ix2 p j))
  refine (Entry.hblock_at (iblk m c 0 t) (iblk m c 1 t) p (staged m c t) j).trans ?_
  refine Eq.trans ?_ (congrArg (HA m c) (emb10 t p j)).symm
  exact congrArg₂ (fun a h => hNew (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) a h j) (funext fun q => iblk0_at m c t p q) (funext fun k => iblk1_at m c t p k)

/-- What point t writes back to the action-value array is block t of the specification's array. -/
theorem flushed11_eq (t : Fin cfg0.N) :
    (dats m 0 c).flushed 11 t = ((cfg0.win 11).blk t).view.read (Elt Ideal) (QA m c) := by
  show (cfg0.win 11).cut (grid0.coords t) ((dats m 0 c).after 11 t) = _
  rw [after11]
  unfold out11
  rw [View.canon_unit_zero hz]
  simp only [View.ld_unit_zero (S := S256x512) hz, View.ld_unit_zero (S := S256x1024) hz, View.ld_unit_zero (S := S512x1024) hz, View.ld_unit_zero (S := S1x1024) hz, View.ld_unit_zero (S := S1024x3072) hz, View.ld_unit_zero (S := S1x3072) hz, View.ld_unit_zero (S := S1024x128) hz, View.ld_unit_zero (S := S1x128) hz]
  funext y
  obtain ⟨p, j, rfl⟩ : ∃ (p : Fin 256) (j : Fin 128), y = ix2 p j := ⟨y 0, y 1, eq_ix2 y⟩
  show k0_pay2 (F := Ideal) (iblk m c 1 t) (k0_pay5 (F := Ideal) (iblk m c 0 t) (iblk m c 1 t) (iblk m c 2 t) (iblk m c 3 t) (iblk m c 4 t) (iblk m c 5 t) (iblk m c 6 t) (iblk m c 7 t)) (k0_pay6 (F := Ideal) (iblk m c 0 t) (iblk m c 2 t) (iblk m c 3 t) (iblk m c 4 t) (iblk m c 5 t)) (k0_pay7 (F := Ideal) (iblk m c 0 t) (iblk m c 1 t) (iblk m c 2 t) (iblk m c 3 t) (iblk m c 4 t) (iblk m c 5 t) (iblk m c 6 t) (iblk m c 7 t)) (iblk m c 8 t) (iblk m c 9 t) (ix2 p j)
    = QA m c (((cfg0.win 11).blk t).view.emb (ix2 p j))
  refine (Entry.qblock_at (iblk m c 0 t) (iblk m c 1 t) p (staged m c t) j).trans ?_
  refine Eq.trans ?_ (congrArg (QA m c) (emb11 t p j)).symm
  exact congrArg₂ (fun a h => qVal (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) a h j) (funext fun q => iblk0_at m c t p q) (funext fun k => iblk1_at m c t p k)

/-- An index of a result array lies in point t's block iff each coordinate lies in the block's range. -/
theorem mem_blk10 (t : Fin cfg0.N) (i : S32768x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v16_0).slice (win0_10.rect t)).set ↔ _
  rw [View.set_slice_whole, Rect.mem_set_unit]
  exact Iff.rfl
theorem mem_blk11 (t : Fin cfg0.N) (i : S32768x128.Idx) :
    i ∈ ((cfg0.win 11).blk t).view.set ↔ ∀ a : Fin 2, win0_11.index t a * S256x128.size a ≤ (i a).val ∧ (i a).val < win0_11.index t a * S256x128.size a + S256x128.size a := by
  show i ∈ ((View.whole main_v16_1).slice (win0_11.rect t)).set ↔ _
  rw [View.set_slice_whole, Rect.mem_set_unit]
  exact Iff.rfl

/-- The point whose block holds row r: r / 256. -/
def pointOf (r : Nat) (hr : r < 32768) : Fin cfg0.N := ⟨r / 256, by rw [show cfg0.N = 128 from N_0]; omega⟩

/-- Every index of the hidden-state array lies in the block of the point its row names. -/
theorem cover10 (i : S32768x1024.Idx) : ∃ t : Fin cfg0.N, (cfg0.win 10).flush t = true ∧ i ∈ ((cfg0.win 10).blk t).view.set := by
  have hi0 : (i 0).val < 32768 := (i 0).isLt
  have hi1 : (i 1).val < 1024 := (i 1).isLt
  refine ⟨pointOf (i 0).val hi0, flush0_10 _, ?_⟩
  rw [mem_blk10]
  have e := idx_facts (pointOf (i 0).val hi0)
  have ht : (pointOf (i 0).val hi0).val = (i 0).val / 256 := rfl
  intro a
  match a with
  | ⟨0, _⟩ => show win0_10.index (pointOf (i 0).val hi0) (0 : Fin 2) * 256 ≤ (i 0).val ∧ (i 0).val < win0_10.index (pointOf (i 0).val hi0) (0 : Fin 2) * 256 + 256; omega
  | ⟨1, _⟩ => show win0_10.index (pointOf (i 0).val hi0) (1 : Fin 2) * 1024 ≤ (i 1).val ∧ (i 1).val < win0_10.index (pointOf (i 0).val hi0) (1 : Fin 2) * 1024 + 1024; omega

/-- Every index of the action-value array lies in the block of the point its row names. -/
theorem cover11 (i : S32768x128.Idx) : ∃ t : Fin cfg0.N, (cfg0.win 11).flush t = true ∧ i ∈ ((cfg0.win 11).blk t).view.set := by
  have hi0 : (i 0).val < 32768 := (i 0).isLt
  have hi1 : (i 1).val < 128 := (i 1).isLt
  refine ⟨pointOf (i 0).val hi0, flush0_11 _, ?_⟩
  rw [mem_blk11]
  have e := idx_facts (pointOf (i 0).val hi0)
  have ht : (pointOf (i 0).val hi0).val = (i 0).val / 256 := rfl
  intro a
  match a with
  | ⟨0, _⟩ => show win0_11.index (pointOf (i 0).val hi0) (0 : Fin 2) * 256 ≤ (i 0).val ∧ (i 0).val < win0_11.index (pointOf (i 0).val hi0) (0 : Fin 2) * 256 + 256; omega
  | ⟨1, _⟩ => show win0_11.index (pointOf (i 0).val hi0) (1 : Fin 2) * 128 ≤ (i 1).val ∧ (i 1).val < win0_11.index (pointOf (i 0).val hi0) (1 : Fin 2) * 128 + 128; omega

/-- The hidden-state array after the run is the specification's. -/
theorem final10 : (dats m 0 c).arrAt 10 cfg0.N = HA m c :=
  (dats m 0 c).arrAt_eq_of_cover 10 (HA m c) (fun t _ => flushed10_eq m c t) cover10

/-- The action-value array after the run is the specification's. -/
theorem final11 : (dats m 0 c).arrAt 11 cfg0.N = QA m c :=
  (dats m 0 c).arrAt_eq_of_cover 11 (QA m c) (fun t _ => flushed11_eq m c t) cover11

end Cert.KernelIdeal.Whole

end
-- ==== Proof.LibDenseRows.lean ====
/-
  Dense layers read one row at a time, over the extended reals.

  A row `h` of length `K` meets a weight matrix `W` of shape `[N, K]` as `lin W h = (∑ₖ hₖ · Wₙₖ)ₙ`, the product
  with the TRANSPOSE of `W`; `affine` adds a bias, `layer` applies `tanh` to that.

  The lemmas say that the vector operations a kernel spells such a layer with act on each row by these maps:
  a matrix product `x · wᵀ` into a zero accumulator (`matmulT_row`: row `r` of the product is `lin w (row r of x)`,
  since entry `(r, n)` is `0 + ∑ₖ x(r, k) · wᵀ(k, n)` and `wᵀ(k, n) = w(n, k)`), a bias vector laid out as one row and
  repeated down the rows (`bias_row`: every row is the bias), and the entrywise sum and `tanh`.
  The matrix product is stated for any two-axis dot record whose operand indices are the plain ones — the left
  operand at `(r, k)`, the right at `(k, n)` — given as four hypotheses, so that it applies to each printed record.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibDenseRows

open Idealize.ShloMosaic Idealize.ShloMosaic.ValueIdx

/-- A `[N, K]` array as a matrix of its coordinates. -/
abbrev mat {N K : ℕ} (w : (⟨2, ![N, K]⟩ : Shape).Idx → EReal) : Fin N → Fin K → EReal := fun n k => w (ix2 n k)

/-- An `[N]` array as a function of its coordinate. -/
abbrev vec {N : ℕ} (b : (⟨1, ![N]⟩ : Shape).Idx → EReal) : Fin N → EReal := fun n => b (ix1 n)

/-- Row `r` of a matrix. -/
def row2 {R K : ℕ} (x : (⟨2, ![R, K]⟩ : Shape).Idx → EReal) (r : Fin R) : Fin K → EReal := fun k => x (ix2 r k)

/-- The row of a three-axis array at its first two coordinates. -/
def row3 {A B K : ℕ} (x : (⟨3, ![A, B, K]⟩ : Shape).Idx → EReal) (p : Fin A) (s : Fin B) : Fin K → EReal :=
  fun k => x (ix3 p s k)

/-- A row times the transpose of `W`: entry `n` is `∑ₖ hₖ · Wₙₖ`. -/
def lin {K N : ℕ} (W : Fin N → Fin K → EReal) (h : Fin K → EReal) : Fin N → EReal := fun n => ∑ k : Fin K, h k * W n k

/-- The same plus the bias. -/
def affine {K N : ℕ} (W : Fin N → Fin K → EReal) (b : Fin N → EReal) (h : Fin K → EReal) : Fin N → EReal :=
  fun n => lin W h n + b n

/-- One hidden layer: `tanh` of the affine map, entry by entry (`tanh` extended by its limits `∓1` at `∓∞`). -/
def layer {K N : ℕ} (W : Fin N → Fin K → EReal) (b : Fin N → EReal) (h : Fin K → EReal) : Fin N → EReal :=
  fun n => Ideal.tanh (affine W b h n)

/-- Two matrices with the same rows are equal. -/
theorem ext_row2 {R K : ℕ} {x y : (⟨2, ![R, K]⟩ : Shape).Idx → EReal} (h : ∀ r, row2 x r = row2 y r) : x = y := by
  funext j
  rw [eq_ix2 j]
  exact congrFun (h (j 0)) (j 1)

/-- Row `r` of `x · wᵀ` accumulated into zero is `lin w` of row `r` of `x`. The dot record `d` is any whose
    contraction has one axis of extent `K` and whose operand indices at output `(r, n)` and contraction position `k`
    are `(r, k)` on the left and `(k, n)` on the right. -/
theorem matmulT_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![N, K]⟩ .f32)
    (ht : (⟨2, ![N, K]⟩ : Shape).Transposes [1, 0] ⟨2, ![K, N]⟩) (r : Fin R) :
    row2 (matmul d none x (transpose ⟨2, ![K, N]⟩ [1, 0] w ht) (constant (F := Ideal) ⟨2, ![R, N]⟩ .f32 0x00000000#32)) r
      = lin (mat w) (row2 x r) := by
  funext n
  show FloatOps.matmul d none x (transpose ⟨2, ![K, N]⟩ [1, 0] w ht) (constant (F := Ideal) ⟨2, ![R, N]⟩ .f32 0x00000000#32) (ix2 r n)
    = ∑ k : Fin K, x (ix2 r k) * w (ix2 n k)
  rw [Ideal.matmul_constant_zero_apply, ← Equiv.sum_comp (contrEquiv1 d K hrank hsize).symm]
  refine Finset.sum_congr rfl fun k _ => ?_
  have hk := contrEquiv1_symm_val d K hrank hsize k
  have el : d.lhsIdx (ix2 r n) ((contrEquiv1 d K hrank hsize).symm k) = ix2 r k := funext fun a => Fin.ext (by
    match a with
    | ⟨0, _⟩ => exact hl0 _ _
    | ⟨1, _⟩ => exact (hl1 _ _).trans hk)
  have er : d.rhsIdx (ix2 r n) ((contrEquiv1 d K hrank hsize).symm k) = ix2 k n := funext fun a => Fin.ext (by
    match a with
    | ⟨0, _⟩ => exact (hr0 _ _).trans hk
    | ⟨1, _⟩ => exact hr1 _ _)
  rw [el, er, transpose_ix2_apply]

/-- A bias vector cast to one row `[1, N]` and repeated down `R` rows: every row is the bias. -/
theorem bias_row {R N : ℕ} (b : FVec Ideal ⟨1, ![N]⟩ .f32) (hc : (⟨1, ![N]⟩ : Shape).ShapeCasts ⟨2, ![1, N]⟩)
    (hb : (⟨2, ![1, N]⟩ : Shape).Broadcasts ⟨2, ![R, N]⟩) (r : Fin R) :
    row2 (broadcastTo ⟨2, ![R, N]⟩ (shapeCast ⟨2, ![1, N]⟩ b hc) hb) r = vec b := by
  funext n
  show broadcastTo ⟨2, ![R, N]⟩ (shapeCast ⟨2, ![1, N]⟩ b hc) hb (ix2 r n) = b (ix1 n)
  rw [broadcastTo_1b_ab_apply, shapeCast_a_1a_apply]

/-- The entrywise sum acts row by row. -/
theorem addf_row {R N : ℕ} (a b : FVec Ideal ⟨2, ![R, N]⟩ .f32) (r : Fin R) :
    row2 (addf a b) r = fun n => row2 a r n + row2 b r n := rfl

/-- The entrywise `tanh` acts row by row. -/
theorem tanh_row {R N : ℕ} (a : FVec Ideal ⟨2, ![R, N]⟩ .f32) (r : Fin R) :
    row2 (tanh a) r = fun n => Ideal.tanh (row2 a r n) := rfl

/-- A product with a transposed weight plus a repeated bias is `affine` on each row. -/
theorem affine_row {R K N : ℕ} (W : Fin N → Fin K → EReal) (b : Fin N → EReal) (h : Fin K → EReal)
    (a c : FVec Ideal ⟨2, ![R, N]⟩ .f32) (r : Fin R) (ha : row2 a r = lin W h) (hc : row2 c r = b) :
    row2 (addf a c) r = affine W b h := by
  rw [addf_row, ha, hc]; rfl

/-- And with `tanh` on top, `layer`. -/
theorem layer_row {R K N : ℕ} (W : Fin N → Fin K → EReal) (b : Fin N → EReal) (h : Fin K → EReal)
    (a c : FVec Ideal ⟨2, ![R, N]⟩ .f32) (r : Fin R) (ha : row2 a r = lin W h) (hc : row2 c r = b) :
    row2 (tanh (addf a c)) r = layer W b h := by
  rw [tanh_row, affine_row W b h a c r ha hc]; rfl

end Cert.LibDenseRows

end
-- ==== Proof.LibSageRows.lean ====
/-
  A mean-aggregation graph layer read one row at a time, over the extended reals.

  A node with feature row `h` and aggregated neighbour row `a`, both of length `K`, is sent to
  `sage Wl b Wr a h = a · Wlᵀ + b + h · Wrᵀ`, a row of length `N`: entry `n` is
  `(∑ₖ aₖ · Wlₙₖ) + bₙ + ∑ₖ hₖ · Wrₙₖ`, the sums grouped in this order.

  The lemmas say that the two ways such a layer is spelt act on each row by this map:
  * a matrix product whose two operands are both contracted along their SECOND axis, accumulated into zero
    (`matmulNT_row`: entry `(r, n)` is `0 + ∑ₖ x(r, k) · w(n, k)`, no transpose is ever formed);
  * the host's product with the weight transposed first (`dotGeneralT_row`: entry `(r, n)` is
    `∑ₖ x(r, k) · wᵀ(k, n)` and `wᵀ(k, n) = w(n, k)`);
  * a bias laid out as one row by a broadcast along the second axis and repeated down the rows (`hostBias_row`);
  * the sum of the three terms (`sage_row_of`).
  Each product is stated for any two-axis dot record whose operand indices are the plain ones, given as four
  hypotheses, so that it applies to each printed record.
  `sageArr` is the layer on a whole array of nodes, row by row, and `hostSage_eq` says that the host's spelling —
  two products with transposed weights and the broadcast bias added between them — is that array.
-/
import Idealize.ShloMosaic.PureOps.Ideal.Laws
import Idealize.ShloMosaic.Lib.ValueIdx
import Idealize.ShloMosaic.Lib.ValueLayout
import Idealize.ShloMosaic.Lib.Pipeline.Value
import proofs.«162858_j61040075211058_2_alg».proof.Proof.LibDenseRows

noncomputable section

namespace Cert.LibSageRows

open Idealize.ShloMosaic Idealize.ShloMosaic.ValueIdx Cert.LibDenseRows

/-- One node of the layer: the aggregated row through `Wl`, plus the bias, plus the node's own row through `Wr`. -/
def sage {K N : ℕ} (Wl : Fin N → Fin K → EReal) (b : Fin N → EReal) (Wr : Fin N → Fin K → EReal)
    (a h : Fin K → EReal) : Fin N → EReal := fun n => lin Wl a n + b n + lin Wr h n

/-- Row `r` of a product that contracts the second axis of BOTH operands, accumulated into zero, is `lin w` of
    row `r` of `x`. The dot record `d` is any whose contraction has one axis of extent `K` and whose operand
    indices at output `(r, n)` and contraction position `k` are `(r, k)` on the left and `(n, k)` on the right. -/
theorem matmulNT_row {R K N : ℕ} {φ₁ φ₂ : FTy} (d : DotDims ⟨2, ![R, K]⟩ ⟨2, ![N, K]⟩ ⟨2, ![R, N]⟩)
    (hrank : d.contr.rank = 1) (hsize : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (j 1).val)
    (hr1 : ∀ (j : (⟨2, ![R, N]⟩ : Shape).Idx) (q : d.contr.Idx), (d.rhsIdx j q 1).val = (q ⟨0, by omega⟩).val)
    (x : FVec Ideal ⟨2, ![R, K]⟩ φ₁) (w : FVec Ideal ⟨2, ![N, K]⟩ φ₂) (r : Fin R) :
    row2 (matmul d none x w (constant (F := Ideal) ⟨2, ![R, N]⟩ .f32 0x00000000#32)) r = lin (mat w) (row2 x r) := by
  funext n
  show FloatOps.matmul d none x w (constant (F := Ideal) ⟨2, ![R, N]⟩ .f32 0x00000000#32) (ix2 r n)
    = ∑ k : Fin K, x (ix2 r k) * w (ix2 n k)
  rw [Ideal.matmul_constant_zero_apply, ← Equiv.sum_comp (contrEquiv1 d K hrank hsize).symm]
  refine Finset.sum_congr rfl fun k _ => ?_
  have hk := contrEquiv1_symm_val d K hrank hsize k
  have el : d.lhsIdx (ix2 r n) ((contrEquiv1 d K hrank hsize).symm k) = ix2 r k := funext fun a => Fin.ext (by
    match a with
    | ⟨0, _⟩ => exact hl0 _ _
    | ⟨1, _⟩ => exact (hl1 _ _).trans hk)
  have er : d.rhsIdx (ix2 r n) ((contrEquiv1 d K hrank hsize).symm k) = ix2 n k := funext fun a => Fin.ext (by
    match a with
    | ⟨0, _⟩ => exact hr0 _ _
    | ⟨1, _⟩ => exact (hr1 _ _).trans hk)
  rw [el, er]

/-- Row `r` of the host's product of `x` with the TRANSPOSE of `w` is `lin w` of row `r` of `x`. The dot record
    `d` is any whose contraction has one axis of extent `K` and whose operand indices at output `(r, n)` and
    contraction position `k` are `(r, k)` on the left and `(k, n)` on the right. -/
theorem dotGeneralT_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x : FVec Ideal ⟨2, ![R, K]⟩ .f32) (w : FVec Ideal ⟨2, ![N, K]⟩ .f32)
    (ht : (⟨2, ![N, K]⟩ : Shape).Transposes [1, 0] ⟨2, ![K, N]⟩) (r : Fin R) :
    row2 (Host.dotGeneral d none x (transpose ⟨2, ![K, N]⟩ [1, 0] w ht)) r = lin (mat w) (row2 x r) := by
  funext n
  show Host.dotGeneral d none x (transpose ⟨2, ![K, N]⟩ [1, 0] w ht) (ix2 r n) = ∑ k : Fin K, x (ix2 r k) * w (ix2 n k)
  simp only [Host.dotGeneral]
  rw [Ideal.dotGeneral_apply, ← Equiv.sum_comp (contrEquiv1 d K hrank hsize).symm]
  refine Finset.sum_congr rfl fun k _ => ?_
  have hk := contrEquiv1_symm_val d K hrank hsize k
  have el : d.lhsIdx (ix2 r n) ((contrEquiv1 d K hrank hsize).symm k) = ix2 r k := funext fun a => Fin.ext (by
    match a with
    | ⟨0, _⟩ => exact hl0 _ _
    | ⟨1, _⟩ => exact (hl1 _ _).trans hk)
  have er : d.rhsIdx (ix2 r n) ((contrEquiv1 d K hrank hsize).symm k) = ix2 k n := funext fun a => Fin.ext (by
    match a with
    | ⟨0, _⟩ => exact (hr0 _ _).trans hk
    | ⟨1, _⟩ => exact hr1 _ _)
  rw [el, er, transpose_ix2_apply]

/-- A bias vector laid out as one row `[1, N]` (its axis sent to the second) and then repeated down `R` rows:
    every row is the bias. -/
theorem hostBias_row {R N : ℕ} {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  rw [broadcastInDim_apply ![0, 1] h2 _ (ix2 r n) (ix2 (0 : Fin 1) n) (fun a => by
    match a with
    | ⟨0, _⟩ => show (0 : ℕ) = if (1 : ℕ) = 1 then 0 else r.val; rw [if_pos rfl]
    | ⟨1, _⟩ => show n.val = if N = 1 then 0 else n.val; split <;> [(have := n.isLt; omega); rfl])]
  exact broadcastInDim_apply ![1] h1 b (ix2 (0 : Fin 1) n) (ix1 n) (fun a => by
    match a with
    | ⟨0, _⟩ => show n.val = if N = 1 then 0 else n.val; split <;> [(have := n.isLt; omega); rfl])

/-- Three arrays whose row `r` are the aggregated product, the bias and the node's own product add up, in that
    grouping, to `sage` on row `r`. -/
theorem sage_row_of {R K N : ℕ} (A B C : (⟨2, ![R, N]⟩ : Shape).Idx → EReal) (r : Fin R)
    (Wl : Fin N → Fin K → EReal) (b : Fin N → EReal) (Wr : Fin N → Fin K → EReal) (a h : Fin K → EReal)
    (hA : row2 A r = lin Wl a) (hB : row2 B r = b) (hC : row2 C r = lin Wr h) :
    (fun n => A (ix2 r n) + B (ix2 r n) + C (ix2 r n)) = sage Wl b Wr a h := by
  funext n
  show row2 A r n + row2 B r n + row2 C r n = _
  rw [hA, hB, hC]; rfl

/-- The layer on a whole array of `R` nodes: row `r` of the result is `sage` of row `r` of the aggregated array `a`
    and row `r` of the node array `x`. -/
def sageArr {R K N : ℕ} (x a : (⟨2, ![R, K]⟩ : Shape).Idx → EReal) (Wl : (⟨2, ![N, K]⟩ : Shape).Idx → EReal)
    (b : (⟨1, ![N]⟩ : Shape).Idx → EReal) (Wr : (⟨2, ![N, K]⟩ : Shape).Idx → EReal) :
    (⟨2, ![R, N]⟩ : Shape).Idx → EReal :=
  fun i => sage (mat Wl) (vec b) (mat Wr) (row2 a (i 0)) (row2 x (i 0)) (i 1)

/-- The host's spelling of the layer — `a · Wlᵀ` by a product with the transposed weight, plus the bias broadcast to
    every row, plus `x · Wrᵀ` likewise — is `sageArr`. -/
theorem hostSage_eq {R K N : ℕ} (d : DotDims ⟨2, ![R, K]⟩ ⟨2, ![K, N]⟩ ⟨2, ![R, N]⟩)
    (hrank : d.contr.rank = 1) (hsize : d.contr.size ⟨0, by omega⟩ = K)
    (hl0 : ∀ (j : (⟨2, ![R, N]⟩ : Shape).Idx) (q : d.contr.Idx), (d.lhsIdx j q 0).val = (j 0).val)
    (hl1 : ∀ (j : (⟨2, ![R, N]⟩ : Shape).Idx) (q : d.contr.Idx), (d.lhsIdx j q 1).val = (q ⟨0, by omega⟩).val)
    (hr0 : ∀ (j : (⟨2, ![R, N]⟩ : Shape).Idx) (q : d.contr.Idx), (d.rhsIdx j q 0).val = (q ⟨0, by omega⟩).val)
    (hr1 : ∀ (j : (⟨2, ![R, N]⟩ : Shape).Idx) (q : d.contr.Idx), (d.rhsIdx j q 1).val = (j 1).val)
    (x a : FVec Ideal ⟨2, ![R, K]⟩ .f32) (Wl Wr : FVec Ideal ⟨2, ![N, K]⟩ .f32) (b : FVec Ideal ⟨1, ![N]⟩ .f32)
    (ht : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![R, N]⟩ ![0, 1]) :
    addf (addf (Host.dotGeneral d none a (transpose ⟨2, ![K, N]⟩ [1, 0] Wl ht))
        (broadcastInDim ⟨2, ![R, N]⟩ ![0, 1] h2 (broadcastInDim ⟨2, ![1, N]⟩ ![1] h1 b)))
      (Host.dotGeneral d none x (transpose ⟨2, ![K, N]⟩ [1, 0] Wr ht)) = sageArr x a Wl b Wr := by
  funext i
  obtain ⟨r, n, rfl⟩ : ∃ (r : Fin R) (n : Fin N), i = ix2 r n := ⟨i 0, i 1, eq_ix2 i⟩
  have hB : row2 (broadcastInDim ⟨2, ![R, N]⟩ ![0, 1] h2 (broadcastInDim ⟨2, ![1, N]⟩ ![1] h1 b)) r = vec b :=
    funext fun n => hostBias_row b h1 h2 r n
  exact congrFun (sage_row_of _ _ _ r (mat Wl) (vec b) (mat Wr) (row2 a r) (row2 x r)
    (dotGeneralT_row d hrank hsize hl0 hl1 hr0 hr1 a Wl ht r) hB
    (dotGeneralT_row d hrank hsize hl0 hl1 hr0 hr1 x Wr ht r)) n

/-- A block of `B` consecutive rows starting at row `t · B`: if the block's rows are the arrays' rows there, `sage`
    on row `p` of the block is `sageArr` at row `t · B + p`. -/
theorem sageArr_of_block {R B K N : ℕ} (X A : (⟨2, ![R, K]⟩ : Shape).Idx → EReal)
    (Wl : (⟨2, ![N, K]⟩ : Shape).Idx → EReal) (b : (⟨1, ![N]⟩ : Shape).Idx → EReal) (Wr : (⟨2, ![N, K]⟩ : Shape).Idx → EReal)
    (x a : (⟨2, ![B, K]⟩ : Shape).Idx → EReal) (wl wr : (⟨2, ![N, K]⟩ : Shape).Idx → EReal) (bb : (⟨1, ![N]⟩ : Shape).Idx → EReal)
    (r : Fin R) (p : Fin B) (n : Fin N)
    (hx : ∀ k, x (ix2 p k) = X (ix2 r k)) (ha : ∀ k, a (ix2 p k) = A (ix2 r k))
    (hwl : wl = Wl) (hwr : wr = Wr) (hb : bb = b) :
    sage (mat wl) (vec bb) (mat wr) (row2 a p) (row2 x p) n = sageArr X A Wl b Wr (ix2 r n) := by
  subst hwl hwr hb
  show _ = sage (mat wl) (vec bb) (mat wr) (row2 A r) (row2 X r) n
  rw [show row2 a p = row2 A r from funext ha, show row2 x p = row2 X r from funext hx]

end Cert.LibSageRows

end
-- ==== Proof.RefEntry.lean ====
import proofs.«162858_j61040075211058_2_alg».proof.Proof.Gen.ReferenceIdeal.Read
import proofs.«162858_j61040075211058_2_alg».proof.Proof.GruSpec
import proofs.«162858_j61040075211058_2_alg».proof.Proof.LibPlainProduct
import proofs.«162858_j61040075211058_2_alg».proof.Proof.LibSageRows
import Idealize.ShloMosaic.Lib.ValueLayout

/-!
# The reference computes the cell row by row

The reference applies each dense layer to all 32768 rows at once: a product of the whole batch array with a
transposed weight matrix, plus the bias laid out as a row and repeated down the rows.  Entry (r, j) of such a layer
depends on row r of its input only, and is the dense layer's output j on that row.  Following the reference's
operations in order, entry (r, j) of its second result is the new hidden state of the specification on row r of
the two batch arrays, and entry (r, j) of its first result is the action value.  The only regrouping is in the two
gates, where the reference adds the four summands left to right and the specification adds two dense layers.
-/

noncomputable section

open scoped BigOperators

namespace Cert.ReferenceIdeal.RefValue

open Cert.ReferenceIdeal Cert.ReferenceIdeal.Gen Cert.ReferenceIdeal.Read Cert.Gru
open Idealize.ShloMosaic Idealize.ShloMosaic.ValueIdx Idealize.ShloMosaic.TcCoe Idealize.SL.Sem

/-- The host's product of L with the transpose of W, read at (r, j): the sum over k of L (r, k) · W (j, k). -/
theorem dotT_at {M K N : Nat} (L : FVec Ideal ⟨2, ![M, K]⟩ .f32) (W : FVec Ideal ⟨2, ![N, K]⟩ .f32)
    (ht : (⟨2, ![N, K]⟩ : Shape).Transposes [1, 0] ⟨2, ![K, N]⟩) (r : Fin M) (j : Fin N) :
    Host.dotGeneral (DotDims.plain M K N) none L (transpose ⟨2, ![K, N]⟩ [1, 0] W ht) (ix2 r j)
      = ∑ k : Fin K, L (ix2 r k) * W (ix2 j k) := by
  simp only [Host.dotGeneral]
  rw [PlainProduct.dotGeneral_plain]
  show ∑ k : Fin K, L (ix2 r k) * transpose ⟨2, ![K, N]⟩ [1, 0] W ht (ix2 k j) = _
  exact Finset.sum_congr rfl fun k _ => by rw [transpose_ix2_apply]

/-- A product with a transposed weight plus the bias repeated down the rows, read at (r, j), is the dense layer's
    output j on row r. -/
theorem dense_at {M K N : Nat} (L : FVec Ideal ⟨2, ![M, K]⟩ .f32) (W : FVec Ideal ⟨2, ![N, K]⟩ .f32) (b : FVec Ideal ⟨1, ![N]⟩ .f32)
    (ht : (⟨2, ![N, K]⟩ : Shape).Transposes [1, 0] ⟨2, ![K, N]⟩) (h1 : (⟨1, ![N]⟩ : Shape).BroadcastsInDim ⟨2, ![1, N]⟩ ![1])
    (h2 : (⟨2, ![1, N]⟩ : Shape).BroadcastsInDim ⟨2, ![M, N]⟩ ![0, 1]) (r : Fin M) (j : Fin N) :
    addf (Host.dotGeneral (DotDims.plain M K N) none L (transpose ⟨2, ![K, N]⟩ [1, 0] W ht))
        (broadcastInDim ⟨2, ![M, N]⟩ ![0, 1] h2 (broadcastInDim ⟨2, ![1, N]⟩ ![1] h1 b)) (ix2 r j)
      = dense (fun k => L (ix2 r k)) W b j := by
  rw [addf_apply, dotT_at, Cert.LibSageRows.hostBias_row]; rfl

variable (x0 : (⟨S32768x512, .f32⟩ : BufTy).Contents (Elt Ideal)) (x1 : (⟨S32768x1024, .f32⟩ : BufTy).Contents (Elt Ideal)) (x2 : (⟨S1024x512, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (x10 : (⟨S1024x1024, .f32⟩ : BufTy).Contents (Elt Ideal)) (x11 : (⟨S1024, .f32⟩ : BufTy).Contents (Elt Ideal)) (x12 : (⟨S1024x1024, .f32⟩ : BufTy).Contents (Elt Ideal)) (x13 : (⟨S1024, .f32⟩ : BufTy).Contents (Elt Ideal)) (x14 : (⟨S1024x1024, .f32⟩ : BufTy).Contents (Elt Ideal)) (x15 : (⟨S1024, .f32⟩ : BufTy).Contents (Elt Ideal)) (x16 : (⟨S128x1024, .f32⟩ : BufTy).Contents (Elt Ideal)) (x17 : (⟨S128, .f32⟩ : BufTy).Contents (Elt Ideal))
variable (r : Fin 32768)

/-- The rectified first layer at (r, k). -/
theorem feat_at (k : Fin 1024) : val_main_v5 (F := Ideal) x0 x2 x3 (ix2 r k) = feat x2 x3 (fun q : Fin 512 => x0 (ix2 r q)) k := by
  show max (val_main_v4 (F := Ideal) x0 x2 x3 (ix2 r k)) (val_main_call0_v0 (F := Ideal) (ix2 r k)) = _
  rw [show val_main_v4 (F := Ideal) x0 x2 x3 (ix2 r k) = dense (fun q : Fin 512 => x0 (ix2 r q)) x2 x3 k from
    dense_at (M := 32768) (K := 512) (N := 1024) x0 x2 x3 _ _ _ r k, val_main_call0_v0_apply]
  rfl

/-- A dense layer of the features at (r, j). -/
theorem v10_at (j : Fin 1024) : val_main_v10 (F := Ideal) x0 x2 x3 x4 x5 (ix2 r j) = dense (feat x2 x3 (fun q : Fin 512 => x0 (ix2 r q))) x4 x5 j :=
  (dense_at (M := 32768) (K := 1024) (N := 1024) (val_main_v5 (F := Ideal) x0 x2 x3) x4 x5 _ _ _ r j).trans
    (congrArg (fun f => dense f x4 x5 j) (funext fun k => feat_at x0 x2 x3 r k))

/-- A dense layer of the features at (r, j). -/
theorem v27_at (j : Fin 1024) : val_main_v27 (F := Ideal) x0 x2 x3 x8 x9 (ix2 r j) = dense (feat x2 x3 (fun q : Fin 512 => x0 (ix2 r q))) x8 x9 j :=
  (dense_at (M := 32768) (K := 1024) (N := 1024) (val_main_v5 (F := Ideal) x0 x2 x3) x8 x9 _ _ _ r j).trans
    (congrArg (fun f => dense f x8 x9 j) (funext fun k => feat_at x0 x2 x3 r k))

/-- A dense layer of the features at (r, j). -/
theorem v44_at (j : Fin 1024) : val_main_v44 (F := Ideal) x0 x2 x3 x12 x13 (ix2 r j) = dense (feat x2 x3 (fun q : Fin 512 => x0 (ix2 r q))) x12 x13 j :=
  (dense_at (M := 32768) (K := 1024) (N := 1024) (val_main_v5 (F := Ideal) x0 x2 x3) x12 x13 _ _ _ r j).trans
    (congrArg (fun f => dense f x12 x13 j) (funext fun k => feat_at x0 x2 x3 r k))

/-- A product of the state with a transposed weight at (r, j). -/
theorem v12_at (j : Fin 1024) : val_main_v12 (F := Ideal) x1 x6 (ix2 r j) = ∑ k : Fin 1024, x1 (ix2 r k) * x6 (ix2 j k) :=
  dotT_at (M := 32768) (K := 1024) (N := 1024) x1 x6 _ r j

/-- A product of the state with a transposed weight at (r, j). -/
theorem v29_at (j : Fin 1024) : val_main_v29 (F := Ideal) x1 x10 (ix2 r j) = ∑ k : Fin 1024, x1 (ix2 r k) * x10 (ix2 j k) :=
  dotT_at (M := 32768) (K := 1024) (N := 1024) x1 x10 _ r j

/-- A bias repeated down the rows at (r, j). -/
theorem v15_at (j : Fin 1024) : val_main_v15 (F := Ideal) x7 (ix2 r j) = x7 (ix1 j) :=
  Cert.LibSageRows.hostBias_row x7 _ _ r j

/-- A bias repeated down the rows at (r, j). -/
theorem v32_at (j : Fin 1024) : val_main_v32 (F := Ideal) x11 (ix2 r j) = x11 (ix1 j) :=
  Cert.LibSageRows.hostBias_row x11 _ _ r j

/-- The state's dense layer inside the candidate at (r, j). -/
theorem v49_at (j : Fin 1024) : val_main_v49 (F := Ideal) x1 x14 x15 (ix2 r j) = dense (fun k : Fin 1024 => x1 (ix2 r k)) x14 x15 j :=
  dense_at (M := 32768) (K := 1024) (N := 1024) x1 x14 x15 _ _ _ r j

/-- The r gate at (r, j): the reference adds the four summands left to right. -/
theorem gate_r_at (j : Fin 1024) : val_main_v22 (F := Ideal) x0 x1 x2 x3 x4 x5 x6 x7 (ix2 r j) = gate x2 x3 x4 x5 x6 x7 (fun q : Fin 512 => x0 (ix2 r q)) (fun k : Fin 1024 => x1 (ix2 r k)) j := by
  have e : val_main_v16 (F := Ideal) x0 x1 x2 x3 x4 x5 x6 x7 (ix2 r j) = dense (feat x2 x3 (fun q : Fin 512 => x0 (ix2 r q))) x4 x5 j + dense (fun k : Fin 1024 => x1 (ix2 r k)) x6 x7 j := by
    show (val_main_v10 (F := Ideal) x0 x2 x3 x4 x5 (ix2 r j) + val_main_v12 (F := Ideal) x1 x6 (ix2 r j)) + val_main_v15 (F := Ideal) x7 (ix2 r j) = _
    rw [v10_at, v12_at, v15_at]
    exact add_assoc _ _ _
  show Ideal.div (val_main_v21 (F := Ideal) (ix2 r j)) (val_main_v19 (F := Ideal) (ix2 r j) + Ideal.exp (-(val_main_v16 (F := Ideal) x0 x1 x2 x3 x4 x5 x6 x7 (ix2 r j)))) = _
  rw [e, val_main_v21_apply, val_main_v19_apply]
  exact logistic_written_out _

/-- The z gate at (r, j): the reference adds the four summands left to right. -/
theorem gate_z_at (j : Fin 1024) : val_main_v39 (F := Ideal) x0 x1 x2 x3 x8 x9 x10 x11 (ix2 r j) = gate x2 x3 x8 x9 x10 x11 (fun q : Fin 512 => x0 (ix2 r q)) (fun k : Fin 1024 => x1 (ix2 r k)) j := by
  have e : val_main_v33 (F := Ideal) x0 x1 x2 x3 x8 x9 x10 x11 (ix2 r j) = dense (feat x2 x3 (fun q : Fin 512 => x0 (ix2 r q))) x8 x9 j + dense (fun k : Fin 1024 => x1 (ix2 r k)) x10 x11 j := by
    show (val_main_v27 (F := Ideal) x0 x2 x3 x8 x9 (ix2 r j) + val_main_v29 (F := Ideal) x1 x10 (ix2 r j)) + val_main_v32 (F := Ideal) x11 (ix2 r j) = _
    rw [v27_at, v29_at, v32_at]
    exact add_assoc _ _ _
  show Ideal.div (val_main_v38 (F := Ideal) (ix2 r j)) (val_main_v36 (F := Ideal) (ix2 r j) + Ideal.exp (-(val_main_v33 (F := Ideal) x0 x1 x2 x3 x8 x9 x10 x11 (ix2 r j)))) = _
  rw [e, val_main_v38_apply, val_main_v36_apply]
  exact logistic_written_out _

/-- The candidate state at (r, j). -/
theorem cand_at (j : Fin 1024) : val_main_v52 (F := Ideal) x0 x1 x2 x3 x4 x5 x6 x7 x12 x13 x14 x15 (ix2 r j) = cand x2 x3 x12 x13 x14 x15 (fun q : Fin 512 => x0 (ix2 r q)) (fun k : Fin 1024 => x1 (ix2 r k)) (gate x2 x3 x4 x5 x6 x7 (fun q : Fin 512 => x0 (ix2 r q)) (fun k : Fin 1024 => x1 (ix2 r k)) j) j := by
  show Ideal.tanh (val_main_v44 (F := Ideal) x0 x2 x3 x12 x13 (ix2 r j) + val_main_v22 (F := Ideal) x0 x1 x2 x3 x4 x5 x6 x7 (ix2 r j) * val_main_v49 (F := Ideal) x1 x14 x15 (ix2 r j)) = _
  rw [v44_at, gate_r_at, v49_at]
  rfl

/-- The new hidden state at (r, j). -/
theorem h_at (j : Fin 1024) : val_main_v57 (F := Ideal) x0 x1 x2 x3 x4 x5 x6 x7 x8 x9 x10 x11 x12 x13 x14 x15 (ix2 r j) = hNew x2 x3 x4 x5 x6 x7 x8 x9 x10 x11 x12 x13 x14 x15 (fun q : Fin 512 => x0 (ix2 r q)) (fun k : Fin 1024 => x1 (ix2 r k)) j := by
  show (val_main_v53 (F := Ideal) (ix2 r j) - val_main_v39 (F := Ideal) x0 x1 x2 x3 x8 x9 x10 x11 (ix2 r j)) * val_main_v52 (F := Ideal) x0 x1 x2 x3 x4 x5 x6 x7 x12 x13 x14 x15 (ix2 r j)
      + val_main_v39 (F := Ideal) x0 x1 x2 x3 x8 x9 x10 x11 (ix2 r j) * x1 (ix2 r j) = _
  rw [gate_z_at, cand_at, val_main_v53_apply]
  rfl

/-- The action value at (r, j). -/
theorem q_at (j : Fin 128) : val_main_v65 (F := Ideal) x0 x1 x2 x3 x4 x5 x6 x7 x8 x9 x10 x11 x12 x13 x14 x15 x16 x17 (ix2 r j) = qVal x2 x3 x4 x5 x6 x7 x8 x9 x10 x11 x12 x13 x14 x15 x16 x17 (fun q : Fin 512 => x0 (ix2 r q)) (fun k : Fin 1024 => x1 (ix2 r k)) j := by
  show val_main_v64 (F := Ideal) (ix2 r j) * Ideal.tanh (val_main_v62 (F := Ideal) x0 x1 x2 x3 x4 x5 x6 x7 x8 x9 x10 x11 x12 x13 x14 x15 x16 x17 (ix2 r j)) = _
  rw [show val_main_v62 (F := Ideal) x0 x1 x2 x3 x4 x5 x6 x7 x8 x9 x10 x11 x12 x13 x14 x15 x16 x17 (ix2 r j) = dense (hNew x2 x3 x4 x5 x6 x7 x8 x9 x10 x11 x12 x13 x14 x15 (fun q : Fin 512 => x0 (ix2 r q)) (fun k : Fin 1024 => x1 (ix2 r k))) x16 x17 j from
    (dense_at (M := 32768) (K := 1024) (N := 128) (val_main_v57 (F := Ideal) x0 x1 x2 x3 x4 x5 x6 x7 x8 x9 x10 x11 x12 x13 x14 x15) x16 x17 _ _ _ r j).trans
      (congrArg (fun f => dense f x16 x17 j) (funext fun k => h_at x0 x1 x2 x3 x4 x5 x6 x7 x8 x9 x10 x11 x12 x13 x14 x15 r k)), val_main_v64_apply]
  rfl

/-- The reference's second result is the array of new hidden states. -/
theorem h_eq : val_main_v57 (F := Ideal) x0 x1 x2 x3 x4 x5 x6 x7 x8 x9 x10 x11 x12 x13 x14 x15 = hArr x2 x3 x4 x5 x6 x7 x8 x9 x10 x11 x12 x13 x14 x15 x0 x1 := by
  funext i
  rw [eq_ix2 i]
  exact h_at x0 x1 x2 x3 x4 x5 x6 x7 x8 x9 x10 x11 x12 x13 x14 x15 (i 0) (i 1)

/-- The reference's first result is the array of action values. -/
theorem q_eq : val_main_v65 (F := Ideal) x0 x1 x2 x3 x4 x5 x6 x7 x8 x9 x10 x11 x12 x13 x14 x15 x16 x17 = qArr x2 x3 x4 x5 x6 x7 x8 x9 x10 x11 x12 x13 x14 x15 x16 x17 x0 x1 := by
  funext i
  rw [eq_ix2 i]
  exact q_at x0 x1 x2 x3 x4 x5 x6 x7 x8 x9 x10 x11 x12 x13 x14 x15 x16 x17 (i 0) (i 1)

end Cert.ReferenceIdeal.RefValue

end
-- ==== Proof.lean ====
import proofs.«162858_j61040075211058_2_alg».proof.Defs
import proofs.«162858_j61040075211058_2_alg».proof.Proof.Gen.Kernel
import proofs.«162858_j61040075211058_2_alg».proof.Proof.Gen.KernelIdeal
import proofs.«162858_j61040075211058_2_alg».proof.Proof.Gen.ReferenceIdeal
import proofs.«162858_j61040075211058_2_alg».proof.Proof.Gen.Pre_finite_inputs
import proofs.«162858_j61040075211058_2_alg».proof.Proof.Gen.ReferenceIdeal.Read
import proofs.«162858_j61040075211058_2_alg».proof.Proof.KernelRun
import proofs.«162858_j61040075211058_2_alg».proof.Proof.KernelIdealRun
import proofs.«162858_j61040075211058_2_alg».proof.Proof.KernelValue
import proofs.«162858_j61040075211058_2_alg».proof.Proof.RefEntry
import Idealize.ShloMosaic.Adequacy
import Idealize.ShloMosaic.Init

/-!
# A gated recurrent cell between two dense layers: the kernel against its reference

Both programs compute, for each of 32768 rows, the rectified first layer of the observations, the reset and
update gates, the candidate state, the new hidden state (1 − z)·n + z·h and the bounded action values
10·tanh(W2·h' + b2).  The kernel works on 128 blocks of 256 rows with the weight matrices transposed and the
three gate matrices of each side laid side by side; the reference works on all rows at once.  On the extended
reals the two agree entry by entry with one specification (GruSpec): the kernel's blocks are blocks of the
specification's arrays (KernelEntry, KernelStaged, KernelValue), the reference's arrays are the specification's
arrays (RefEntry).  The only algebra is the associativity of addition, in the reference's gates; no entry needs to
be finite, so the precondition is not used.  Both programs run to the end leaving their arguments unchanged
(KernelRun, KernelIdealRun, and the reference's run), and the idealized kernel is the kernel's own text read at
the exact values, so nothing is to be shown of its rewrites.
-/

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the specification's two arrays of the
    arguments. -/
theorem algebraic : Cert.algebraic_KernelIdeal_ReferenceIdeal := by
  intro m ρ m' ρ' _ hagree
  refine ⟨fun c => Cert.KernelIdeal.Whole.QA m c, fun c => Cert.KernelIdeal.Whole.HA m c, ?_, ?_⟩
  · exact (θ_run Cert.KernelIdeal.defs _ _).mono
      (fun _ h c => ⟨(h c).1.trans (Cert.KernelIdeal.Whole.final11 m c), (h c).2.1.trans (Cert.KernelIdeal.Whole.final10 m c), (h c).2.2⟩)
      (Cert.KernelIdeal.Hand.run_named m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17⟩ := hagree c
      rw [Cert.ReferenceIdeal.Read.val_main_v65_eq, Cert.ReferenceIdeal.RefValue.q_eq, h0, h1, h2, h3, h4, h5, h6, h7, h8, h9, h10, h11, h12, h13, h14, h15, h16, h17]
    · obtain ⟨h0, h1, h2, h3, h4, h5, h6, h7, h8, h9, h10, h11, h12, h13, h14, h15, h16, h17⟩ := hagree c
      rw [Cert.ReferenceIdeal.Read.val_main_v57_eq, Cert.ReferenceIdeal.RefValue.h_eq, h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
